-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S32x64 .f32) (main_arg9 : FVec F S32 .f32) (main_arg10 : FVec F S32x64 .f32) (main_arg11 : FVec F S1x32 .f32) (main_arg12 : FVec F S1 .f32) (main_v33 : IVec S_ 1) : IVec S_ 1 :=
  let main_v34 : FVec F S32x64 .f32 := Host.absf main_arg8
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x64 .f32 := Host.absf main_arg10
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S1x32 .f32 := Host.absf main_arg11
  let main_cst_18 : FVec F S_ .f32 := constant S_ .f32 0x7F800000#32
  let main_v50 : FVec F S1x32 .f32 := broadcastInDim S1x32 ![] bcast_S_S1x32 main_cst_18
  fn_part3 (F := F) main_arg12 main_v48 main_v49 main_v50

def fn_part1 {F : FTy → Type} [FloatOps F] (main_arg5 : FVec F S64x64 .f32) (main_arg6 : FVec F S64 .f32) (main_arg7 : FVec F S64x64 .f32) (main_arg8 : FVec F S32x64 .f32) (main_arg9 : FVec F S32 .f32) (main_arg10 : FVec F S32x64 .f32) (main_arg11 : FVec F S1x32 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S32x64 .f32) (main_arg9 : FVec F S32 .f32) (main_arg10 : FVec F S32x64 .f32) (main_arg11 : FVec F S1x32 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S64x32 : Shape := ⟨2, ![64, 32]⟩
abbrev S32x1 : Shape := ⟨2, ![32, 1]⟩
abbrev S1600000x64 : Shape := ⟨2, ![1600000, 64]⟩
abbrev S5000x64 : Shape := ⟨2, ![5000, 64]⟩
abbrev S5000x1 : Shape := ⟨2, ![5000, 1]⟩
abbrev S1x64 : Shape := ⟨2, ![1, 64]⟩
abbrev S100000x32 : Shape := ⟨2, ![100000, 32]⟩
abbrev S5000x32 : Shape := ⟨2, ![5000, 32]⟩
abbrev S1600000x32 : Shape := ⟨2, ![1600000, 32]⟩
abbrev S1x1 : Shape := ⟨2, ![1, 1]⟩

abbrev nBuf : Space → Nat
  | .hbm => 81
  | .vmem => 37
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S32x64, .f32⟩
  | .hbm, ⟨9, _⟩ => ⟨S32, .f32⟩
  | .hbm, ⟨10, _⟩ => ⟨S32x64, .f32⟩
  | .hbm, ⟨11, _⟩ => ⟨S1x32, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x32, .f32⟩
  | .hbm, ⟨35, _⟩ => ⟨S64x32, .f32⟩
  | .hbm, ⟨36, _⟩ => ⟨S32x1, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S100000x64, .f32⟩
  | .hbm, ⟨65, _⟩ => ⟨S100000x32, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x32, .f32⟩
  | .hbm, ⟨75, _⟩ => ⟨S_, .f32⟩
  | .hbm, ⟨76, _⟩ => ⟨S100000x32, .f32⟩
  | .hbm, ⟨77, _⟩ => ⟨S1600000x1, .i32⟩
  | .hbm, ⟨78, _⟩ => ⟨S100000x32, .f32⟩
  | .hbm, ⟨79, _⟩ => ⟨S100000x1, .f32⟩
  | .hbm, ⟨80, _⟩ => ⟨S100000, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S64, .f32⟩
  | .local _ .vmem, ⟨19, _⟩ => ⟨S64x64, .f32⟩
  | .local _ .vmem, ⟨20, _⟩ => ⟨S64x32, .f32⟩
  | .local _ .vmem, ⟨21, _⟩ => ⟨S5000x64, .f32⟩
  | .local _ .vmem, ⟨22, _⟩ => ⟨S5000x64, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x1, .f32⟩
  | .local _ .vmem, ⟨28, _⟩ => ⟨S5000x1, .f32⟩
  | .local _ .vmem, ⟨29, _⟩ => ⟨S5000x64, .f32⟩
  | .local _ .vmem, ⟨30, _⟩ => ⟨S5000x64, .f32⟩
  | .local _ .vmem, ⟨31, _⟩ => ⟨S32, .f32⟩
  | .local _ .vmem, ⟨32, _⟩ => ⟨S64x32, .f32⟩
  | .local _ .vmem, ⟨33, _⟩ => ⟨S32x1, .f32⟩
  | .local _ .vmem, ⟨34, _⟩ => ⟨S1, .f32⟩
  | .local _ .vmem, ⟨35, _⟩ => ⟨S5000x1, .f32⟩
  | .local _ .vmem, ⟨36, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41_0 : Ref sig .tc := ⟨.hbm, 64, rfl⟩
abbrev main_v41_1 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  transposes_S64x64_S64x64_1_0 : S64x64.Transposes [1, 0] S64x64
  transposes_S32x64_S64x32_1_0 : S32x64.Transposes [1, 0] S64x32
  transposes_S1x32_S32x1_1_0 : S1x32.Transposes [1, 0] S32x1
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S5000x32_S5000x32 : S5000x32.ShapeCasts S5000x32
  broadcasts_S5000x1_S5000x32 : S5000x1.Broadcasts S5000x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  shapeCasts_S100000x1_S100000 : S100000x1.ShapeCasts S100000
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x32.size a ≤ S64x32.size a
  hwx1_6 : ∀ i : grid1.Coords, EltTy.bits .f32 = 32 ∨ (Rect.block (s := S64x32) S64x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x32.size a ≤ S100000x32.size a
  hwx1_8 : ∀ i : grid1.Coords, EltTy.bits .f32 = 32 ∨ (Rect.block (s := S100000x32) S5000x32.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x32.size a ≤ S64x32.size a
  hwx2_4 : ∀ i : grid2.Coords, EltTy.bits .f32 = 32 ∨ (Rect.block (s := S64x32) S64x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x1.size a ≤ S32x1.size a
  hwx2_5 : ∀ i : grid2.Coords, EltTy.bits .f32 = 32 ∨ (Rect.block (s := S32x1) S32x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S100000x1.size a
  hwx2_7 : ∀ i : grid2.Coords, EltTy.bits .f32 = 32 ∨ (Rect.block (s := S100000x1) S5000x1.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v29) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S64x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41_0) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v41_1) S5000x32.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v51) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41_0) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S64x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S32x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S5000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S64x32 : Shape := ⟨2, ![64, 32]⟩
abbrev S100000x32 : Shape := ⟨2, ![100000, 32]⟩
abbrev S32x1 : Shape := ⟨2, ![32, 1]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64x64, .f32⟩
  | 6 => ⟨S64, .f32⟩
  | 7 => ⟨S64x64, .f32⟩
  | 8 => ⟨S32x64, .f32⟩
  | 9 => ⟨S32, .f32⟩
  | 10 => ⟨S32x64, .f32⟩
  | 11 => ⟨S1x32, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S_, .f32⟩
  | 31 => ⟨S1600000, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x64, .f32⟩
  | 41 => ⟨S100000x64, .f32⟩
  | 42 => ⟨S64x64, .f32⟩
  | 43 => ⟨S100000x64, .f32⟩
  | 44 => ⟨S1x64, .f32⟩
  | 45 => ⟨S100000x64, .f32⟩
  | 46 => ⟨S100000x64, .f32⟩
  | 47 => ⟨S64x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S_, .f32⟩
  | 67 => ⟨S1600000, .f32⟩
  | 68 => ⟨S_, .f32⟩
  | 69 => ⟨S100000, .f32⟩
  | 70 => ⟨S1600000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x64, .f32⟩
  | 77 => ⟨S100000x64, .f32⟩
  | 78 => ⟨S64x64, .f32⟩
  | 79 => ⟨S100000x64, .f32⟩
  | 80 => ⟨S1x64, .f32⟩
  | 81 => ⟨S100000x64, .f32⟩
  | 82 => ⟨S100000x64, .f32⟩
  | 83 => ⟨S64x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S_, .f32⟩
  | 99 => ⟨S100000x64, .f32⟩
  | 100 => ⟨S1600000x1, .i32⟩
  | 101 => ⟨S100000x64, .f32⟩
  | 102 => ⟨S_, .f32⟩
  | 103 => ⟨S1600000, .f32⟩
  | 104 => ⟨S_, .f32⟩
  | 105 => ⟨S100000, .f32⟩
  | 106 => ⟨S1600000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x64, .f32⟩
  | 113 => ⟨S100000x64, .f32⟩
  | 114 => ⟨S64x32, .f32⟩
  | 115 => ⟨S100000x32, .f32⟩
  | 116 => ⟨S1x32, .f32⟩
  | 117 => ⟨S100000x32, .f32⟩
  | 118 => ⟨S100000x32, .f32⟩
  | 119 => ⟨S64x32, .f32⟩
  | 120 => ⟨S100000x32, .f32⟩
  | 121 => ⟨S100000x32, .f32⟩
  | 122 => ⟨S_, .f32⟩
  | 123 => ⟨S100000x32, .f32⟩
  | 124 => ⟨S100000x32, .f32⟩
  | 125 => ⟨S32x1, .f32⟩
  | 126 => ⟨S100000x1, .f32⟩
  | 127 => ⟨S1x1, .f32⟩
  | _ => ⟨S100000x64, .f32⟩

abbrev hbmTy0_1 (i : Nat) : BufTy := match i % 128 with
  | 0 => ⟨S100000x1, .f32⟩
  | 1 => ⟨S100000x1, .f32⟩
  | 2 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call2_cst : Ref sig .tc := ⟨.hbm, 122, rfl⟩
abbrev main_call2_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S1x32_S32x1_1_0 : S1x32.Transposes [1, 0] S32x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel's run, with every buffer read at the end.

  @main is seven segments: four stretches of host operations and, between them, three pipelined kernel regions
  (the two neighbour-aggregating layers and the head). The generated frame certificate follows the TensorCore's
  buffer contents through these segments as a fold `W0, W1, …, W7` from the launch memory — a host stretch applies
  its operations to the contents, a region replaces its arrays by what its write-backs leave — and proves that every
  weakly fair execution terminates with every unscoped buffer holding the last boundary's contents `W7`. Its stated
  post keeps only the argument arrays. Here the same run is stated with the whole reading kept: at the end, on every
  core, every unscoped buffer `b` holds `W7 m ρ c b`. The value of the result array is then a matter of computing
  the fold, which the other modules do.
-/
import proofs.«165640_j38122129719954_2_alg».proof.Proof.Patched.KernelIdeal.Frame

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain
-- definitions in a metavariable's type
set_option backward.isDefEq.respectTransparency.types false in
/-- Every weakly fair execution of @main terminates, nothing faulting, and at the end every unscoped buffer of every
    core holds the contents the fold through the seven segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The run read at one TensorCore reference that no scope owns. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W7 m ρ c (Proc.devRef .tc b)) :=
  (θ_run defs _ _).mono (fun r h c => h c _ (mem_uc b hb)) (run_all m ρ)

end Cert.KernelIdeal.Out

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibDenseEdges.lean ====
/-
  A dense matrix assembled from an edge list, applied to a column, against the edgewise sum.

  Edges e carry a weight a_e, a target r_e and a source c_e.  The dense matrix has entry
  (n, k) = ∑ of a_e over the edges with r_e = n and c_e = k  (parallel edges add up).  Applying it to a
  column t gives, at row n,  ∑_k L(n, k) · t_k.  The edgewise form aggregates at the target directly:
  ∑ of a_e · t_{c_e} over the edges with r_e = n.  The two agree because a product distributes over a finite
  sum — which on the extended reals needs every weight and every entry of the column to be a real number:
  with a weight +∞ beside a weight −∞ on parallel edges, or an infinite entry of t against weights that cancel,
  the two sides differ.  So the identity is stated for real-valued data, and the closure lemmas below are what
  carries "every entry is a real number" through sums, products, negation and maxima.
-/
import Idealize.ShloMosaic.PureOps.Ideal.Laws

noncomputable section

open scoped BigOperators

namespace Cert.DenseEdges

/-! ## Extended reals that are real numbers -/

/-- An extended real that is a real number (neither infinity). -/
def IsReal (x : EReal) : Prop := ∃ r : ℝ, x = (r : EReal)

theorem isReal_of_ne {x : EReal} (hb : x ≠ ⊥) (ht : x ≠ ⊤) : IsReal x :=
  ⟨x.toReal, (EReal.coe_toReal ht hb).symm⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_zero : IsReal 0 := ⟨0, EReal.coe_zero.symm⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.neg {x : EReal} (hx : IsReal x) : IsReal (-x) := by
  obtain ⟨r, rfl⟩ := hx; exact ⟨-r, (EReal.coe_neg r).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- A finite sum of real numbers is a real number. -/
theorem isReal_sum {ι : Type*} (s : Finset ι) (f : ι → EReal) (h : ∀ i ∈ s, IsReal (f i)) :
    IsReal (∑ i ∈ s, f i) := by
  classical
  refine Finset.induction_on s (fun _ => ?_) (fun i s hi ih h => ?_) h
  · rw [Finset.sum_empty]; exact isReal_zero
  · rw [Finset.sum_insert hi]
    exact (h i (Finset.mem_insert_self i s)).add (ih fun j hj => h j (Finset.mem_insert_of_mem hj))

/-! ## The dense form against the edgewise form -/

/-- Over the reals: summing the dense matrix's row n against the column is summing, over the edges into n, the
    weight times the column's entry at the edge's source. -/
theorem real_dense_eq_edges {E N : Type*} [Fintype E] [Fintype N] [DecidableEq N]
    (r c : E → N) (a : E → ℝ) (t : N → ℝ) (n : N) :
    ∑ k, (∑ e ∈ Finset.univ.filter (fun e => r e = n ∧ c e = k), a e) * t k
      = ∑ e ∈ Finset.univ.filter (fun e => r e = n), a e * t (c e) := by
  simp only [Finset.sum_mul, Finset.sum_filter]
  rw [Finset.sum_comm]
  refine Finset.sum_congr rfl fun e _ => ?_
  by_cases h : r e = n
  · simp only [h, true_and, if_true, ite_mul, zero_mul]
    rw [Finset.sum_ite_eq Finset.univ (c e) (fun k => a e * t k)]
    simp
  · simp only [h, false_and, if_false, zero_mul, Finset.sum_const_zero]

/-- THE IDENTITY over the extended reals, for real-valued weights and a real-valued column: row n of the dense
    matrix (each entry the zero it was initialised with plus its parallel edges' weights) against the column
    equals the zero plus the edgewise sum at the target n. -/
theorem dense_eq_edges {E N : Type*} [Fintype E] [Fintype N] [DecidableEq N]
    (r c : E → N) (a : E → EReal) (t : N → EReal)
    (ha : ∀ e, IsReal (a e)) (ht : ∀ k, IsReal (t k)) (n : N) :
    ∑ k, ((0 : EReal) + ∑ e ∈ Finset.univ.filter (fun e => r e = n ∧ c e = k), a e) * t k
      = (0 : EReal) + ∑ e ∈ Finset.univ.filter (fun e => r e = n), a e * t (c e) := by
  choose a' ha' using ha
  choose t' ht' using ht
  simp only [ha', ht', zero_add, ← coe_sum, ← EReal.coe_mul]
  exact congrArg _ (real_dense_eq_edges r c a' t' n)

/-- The dense product's entries are real numbers when the weights and the column are. -/
theorem isReal_dense {E N : Type*} [Fintype E] [Fintype N] [DecidableEq N]
    (r c : E → N) (a : E → EReal) (t : N → EReal)
    (ha : ∀ e, IsReal (a e)) (ht : ∀ k, IsReal (t k)) (n : N) :
    IsReal (∑ k, ((0 : EReal) + ∑ e ∈ Finset.univ.filter (fun e => r e = n ∧ c e = k), a e) * t k) :=
  isReal_sum _ _ fun k _ => (isReal_zero.add (isReal_sum _ _ fun e _ => ha e)).mul (ht k)

end Cert.DenseEdges

end
-- ==== Proof.SageSpec.lean ====
/-
  Three mean-aggregating graph layers and a linear read-out, over the extended reals.

  A node `n` has a row of features `x n`, a set of incoming edges, a divisor `c n` (the number of those edges,
  floored at one) and the sum `S n` of the feature rows at the sources of its incoming edges. One layer is

      meanRow … j = max ((∑ k, (S k / c) · wl[k, j]) + b j + ∑ k, x k · wr[k, j]) zero.

  The same layer is also computed with the neighbour sum SCALED by a reciprocal `inv` held in a column instead of
  divided (`scaledRow`: the two products are added first, the bias last). When `c` is a nonzero real and `inv` its
  reciprocal the two rows are equal at every extended real: dividing by a nonzero real IS multiplying by its
  reciprocal, and sums of three terms may be regrouped. No entry has to be finite for that.

  The last layer is computed a third way: the rows are first multiplied by `wl`, and the PROJECTED rows are summed
  over the incoming edges and scaled (`headRow`). That equals the mean layer when the rows and the weights are real
  numbers (`scaled_sum_of_products`): a finite sum of finite products may be exchanged with the contraction, and a
  real factor moves across it — false at infinities, which is where the certificate uses its precondition.
-/
import proofs.«165640_j38122129719954_2_alg».proof.Proof.LibRowLayers
import proofs.«165640_j38122129719954_2_alg».proof.Proof.LibDenseEdges

noncomputable section

open scoped BigOperators

namespace Cert.Sage

open Idealize.ShloMosaic Idealize.ShloMosaic.ValueIdx Cert.RowLayers Cert.DenseEdges

/-- An `[a, b]` array of extended reals. -/
abbrev A2 (a b : ℕ) : Type := (⟨2, ![a, b]⟩ : Shape).Idx → EReal
/-- An `[a]` array of extended reals. -/
abbrev A1 (a : ℕ) : Type := (⟨1, ![a]⟩ : Shape).Idx → EReal

/-! ## One node -/

/-- The layer with the neighbour sum scaled by `inv`: `max (((∑ (S·inv)·wl) + ∑ x·wr) + b) zero`. -/
def scaledRow {K J : ℕ} (zero : EReal) (S : Fin K → EReal) (inv : EReal) (x : Fin K → EReal) (wl wr : A2 K J)
    (b : Fin J → EReal) : Fin J → EReal :=
  relu zero fun j => ((∑ k : Fin K, (S k * inv) * wl (ix2 k j)) + ∑ k : Fin K, x k * wr (ix2 k j)) + b j

/-- The layer with the neighbour sum divided by `c`: `max (((∑ (S/c)·wl) + b) + ∑ x·wr) zero`. -/
def meanRow {K J : ℕ} (zero : EReal) (S : Fin K → EReal) (c : EReal) (x : Fin K → EReal) (wl wr : A2 K J)
    (b : Fin J → EReal) : Fin J → EReal :=
  relu zero fun j => dense (fun k => Ideal.div (S k) c) wl b j + ∑ k : Fin K, x k * wr (ix2 k j)

/-- Dividing by a nonzero real is multiplying by its reciprocal, and three terms may be regrouped: the two layers
    are one function, at every extended real. -/
theorem scaledRow_eq_meanRow {K J : ℕ} (zero : EReal) (S : Fin K → EReal) (c inv : EReal) (x : Fin K → EReal)
    (wl wr : A2 K J) (b : Fin J → EReal) (r : ℝ) (hr : r ≠ 0) (hc : c = (r : EReal)) (hinv : inv = ((1 / r : ℝ) : EReal)) :
    scaledRow zero S inv x wl wr b = meanRow zero S c x wl wr b := by
  subst hc hinv
  funext j
  unfold scaledRow meanRow relu dense
  simp only [Ideal.div_coe hr]
  rw [add_right_comm]

/-- The linear read-out of a row: `(∑ j, h j · wreg[j, 0]) + breg`. -/
def readout {J : ℕ} (h : Fin J → EReal) (wreg : A2 J 1) (breg : EReal) : EReal :=
  (∑ j : Fin J, h j * wreg (ix2 j (0 : Fin 1))) + breg

/-- The last layer from the PROJECTED neighbour sum `P` (already multiplied by `wl`), scaled by `inv`, then read out. -/
def headRow {K J : ℕ} (zero : EReal) (P : Fin J → EReal) (inv : EReal) (x : Fin K → EReal) (wr : A2 K J)
    (b : Fin J → EReal) (wreg : A2 J 1) (breg : EReal) : EReal :=
  readout (relu zero fun j => (P j * inv + b j) + ∑ k : Fin K, x k * wr (ix2 k j)) wreg breg

/-- Where the scaled projected sum is the contraction of the mean, the head is the read-out of the mean layer. -/
theorem headRow_eq_readout {K J : ℕ} (zero : EReal) (P : Fin J → EReal) (inv : EReal) (S : Fin K → EReal) (c : EReal)
    (x : Fin K → EReal) (wl wr : A2 K J) (b : Fin J → EReal) (wreg : A2 J 1) (breg : EReal)
    (hP : ∀ j, P j * inv = ∑ k : Fin K, Ideal.div (S k) c * wl (ix2 k j)) :
    headRow zero P inv x wr b wreg breg = readout (meanRow zero S c x wl wr b) wreg breg := by
  unfold headRow meanRow dense
  simp only [hP]

/-! ## The step that needs real numbers -/

/-- For real rows `X` and real weights `w`: the sum over a set of edges of the projected source rows, scaled by the
    reciprocal of a nonzero real `r`, is the contraction with `w` of the summed source rows divided by `r`. -/
theorem scaled_sum_of_products {E N K J : ℕ} (T : Finset (Fin E)) (g : Fin E → Fin N) (X : A2 N K) (w : A2 K J)
    (hX : ∀ i, IsReal (X i)) (hw : ∀ i, IsReal (w i)) (r : ℝ) (hr : r ≠ 0) (j : Fin J) :
    ((0 : EReal) + ∑ e ∈ T, ∑ k : Fin K, X (ix2 (g e) k) * w (ix2 k j)) * ((1 / r : ℝ) : EReal)
      = ∑ k : Fin K, Ideal.div ((0 : EReal) + ∑ e ∈ T, X (ix2 (g e) k)) (r : EReal) * w (ix2 k j) := by
  choose X' hX' using hX
  choose w' hw' using hw
  simp only [hX', hw', Ideal.div_coe hr, zero_add]
  have hL : (∑ e ∈ T, ∑ k : Fin K, ((X' (ix2 (g e) k) : ℝ) : EReal) * ((w' (ix2 k j) : ℝ) : EReal))
      = ((∑ e ∈ T, ∑ k : Fin K, X' (ix2 (g e) k) * w' (ix2 k j) : ℝ) : EReal) := by
    rw [coe_sum]; refine Finset.sum_congr rfl fun e _ => ?_
    rw [coe_sum]; refine Finset.sum_congr rfl fun k _ => ?_
    rw [EReal.coe_mul]
  have hR : ∀ k : Fin K, (∑ e ∈ T, ((X' (ix2 (g e) k) : ℝ) : EReal)) = ((∑ e ∈ T, X' (ix2 (g e) k) : ℝ) : EReal) :=
    fun k => (coe_sum T fun e => X' (ix2 (g e) k)).symm
  rw [hL]
  simp only [hR, ← EReal.coe_mul]
  rw [← coe_sum]
  refine congrArg _ ?_
  rw [Finset.sum_comm, Finset.sum_mul]
  refine Finset.sum_congr rfl fun k _ => ?_
  rw [← Finset.sum_mul]
  ring

/-! ## Real data stay real -/

theorem isReal_div_real {x : EReal} (hx : IsReal x) (r : ℝ) (hr : r ≠ 0) : IsReal (Ideal.div x (r : EReal)) := by
  rw [Ideal.div_coe hr]; exact hx.mul ⟨_, rfl⟩

theorem isReal_meanRow {K J : ℕ} (zero : EReal) (S : Fin K → EReal) (c : EReal) (x : Fin K → EReal) (wl wr : A2 K J)
    (b : Fin J → EReal) (hz : IsReal zero) (hS : ∀ k, IsReal (S k)) (r : ℝ) (hr : r ≠ 0) (hc : c = (r : EReal))
    (hx : ∀ k, IsReal (x k)) (hwl : ∀ i, IsReal (wl i)) (hwr : ∀ i, IsReal (wr i)) (hb : ∀ j, IsReal (b j)) (j : Fin J) :
    IsReal (meanRow zero S c x wl wr b j) := by
  subst hc
  unfold meanRow relu dense
  exact IsReal.max (((isReal_sum _ _ fun k _ => (isReal_div_real (hS k) r hr).mul (hwl _)).add (hb j)).add
    (isReal_sum _ _ fun k _ => (hx k).mul (hwr _))) hz

/-! ## Every node: arrays with any number of rows -/

/-- Entry `(r, q)`: `scaledRow` of row `r` of `S`, of `inv[r, 0]` and of row `r` of `x`, at `q`. -/
def scaledLayer {a K J : ℕ} (zero : EReal) (S : A2 a K) (inv : A2 a 1) (x : A2 a K) (wl wr : A2 K J) (b : Fin J → EReal) : A2 a J :=
  fun i => scaledRow zero (rowOf S (i 0)) (inv (ix2 (i 0) (0 : Fin 1))) (rowOf x (i 0)) wl wr b (i 1)

/-- Entry `(r, q)`: `meanRow` of row `r` of `S`, of `c[r]` and of row `r` of `x`, at `q`. -/
def meanLayer {a K J : ℕ} (zero : EReal) (S : A2 a K) (c : A1 a) (x : A2 a K) (wl wr : A2 K J) (b : Fin J → EReal) : A2 a J :=
  fun i => meanRow zero (rowOf S (i 0)) (c (ix1 (i 0))) (rowOf x (i 0)) wl wr b (i 1)

/-- The rows multiplied by a weight matrix: entry `(r, q) = ∑ k, x[r, k] · w[k, q]`. -/
def proj {a K J : ℕ} (x : A2 a K) (w : A2 K J) : A2 a J := fun i => ∑ k : Fin K, rowOf x (i 0) k * w (ix2 k (i 1))

/-- Entry `(r, u)`: `headRow` of row `r` of `P`, of `inv[r, 0]` and of row `r` of `x`. -/
def headLayer {a K J : ℕ} (zero : EReal) (P : A2 a J) (inv : A2 a 1) (x : A2 a K) (wr : A2 K J) (b : Fin J → EReal)
    (wreg : A2 J 1) (breg : EReal) : A2 a 1 :=
  fun i => headRow zero (rowOf P (i 0)) (inv (ix2 (i 0) (0 : Fin 1))) (rowOf x (i 0)) wr b wreg breg

/-- Entry `(r, u)`: the read-out of row `r`. -/
def readoutLayer {a J : ℕ} (h : A2 a J) (wreg : A2 J 1) (breg : EReal) : A2 a 1 :=
  fun i => readout (rowOf h (i 0)) wreg breg

theorem scaledLayer_ix2 {a K J : ℕ} (zero : EReal) (S : A2 a K) (inv : A2 a 1) (x : A2 a K) (wl wr : A2 K J) (b : Fin J → EReal)
    (r : Fin a) (q : Fin J) :
    scaledLayer zero S inv x wl wr b (ix2 r q) = scaledRow zero (rowOf S r) (inv (ix2 r (0 : Fin 1))) (rowOf x r) wl wr b q := rfl

theorem meanLayer_ix2 {a K J : ℕ} (zero : EReal) (S : A2 a K) (c : A1 a) (x : A2 a K) (wl wr : A2 K J) (b : Fin J → EReal)
    (r : Fin a) (q : Fin J) :
    meanLayer zero S c x wl wr b (ix2 r q) = meanRow zero (rowOf S r) (c (ix1 r)) (rowOf x r) wl wr b q := rfl

/-- With every divisor a nonzero real and the column holding its reciprocal, the two layers are one array. -/
theorem scaledLayer_eq_meanLayer {a K J : ℕ} (zero : EReal) (S : A2 a K) (inv : A2 a 1) (c : A1 a) (x : A2 a K)
    (wl wr : A2 K J) (b : Fin J → EReal)
    (h : ∀ n : Fin a, ∃ r : ℝ, r ≠ 0 ∧ c (ix1 n) = (r : EReal) ∧ inv (ix2 n (0 : Fin 1)) = ((1 / r : ℝ) : EReal)) :
    scaledLayer zero S inv x wl wr b = meanLayer zero S c x wl wr b := by
  funext i
  obtain ⟨p, q, rfl⟩ : ∃ (p : Fin a) (q : Fin J), i = ix2 p q := ⟨i 0, i 1, eq_ix2 i⟩
  obtain ⟨r, hr, hc, hinv⟩ := h p
  rw [scaledLayer_ix2, meanLayer_ix2, scaledRow_eq_meanRow zero _ _ _ _ wl wr b r hr hc hinv]

theorem isReal_meanLayer {a K J : ℕ} (zero : EReal) (S : A2 a K) (c : A1 a) (x : A2 a K) (wl wr : A2 K J) (b : Fin J → EReal)
    (hz : IsReal zero) (hS : ∀ i, IsReal (S i)) (hc : ∀ n : Fin a, ∃ r : ℝ, r ≠ 0 ∧ c (ix1 n) = (r : EReal))
    (hx : ∀ i, IsReal (x i)) (hwl : ∀ i, IsReal (wl i)) (hwr : ∀ i, IsReal (wr i)) (hb : ∀ j, IsReal (b j))
    (i : (⟨2, ![a, J]⟩ : Shape).Idx) : IsReal (meanLayer zero S c x wl wr b i) := by
  obtain ⟨p, q, rfl⟩ : ∃ (p : Fin a) (q : Fin J), i = ix2 p q := ⟨i 0, i 1, eq_ix2 i⟩
  obtain ⟨r, hr, hcr⟩ := hc p
  rw [meanLayer_ix2]
  exact isReal_meanRow zero _ _ _ wl wr b hz (fun k => hS _) r hr hcr (fun k => hx _) hwl hwr hb q

end Cert.Sage

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.SageForms.lean ====
/-
  The device's and the host's spellings of the layers, read as the row functions of the specification.

  On the device a layer is computed on a block of rows: the neighbour sums times the reciprocal column broadcast
  along the lanes, two products into zero accumulators (their operands first rounded to a narrower format, which is
  the identity over the extended reals), a `[1, J]` bias row broadcast down the rows, a maximum with a splat scalar;
  the projection is one more product; the head adds the bias BEFORE the second product and ends with the read-out
  product and its `[1, 1]` bias. On the host the neighbour sums are divided by the divisor vector, viewed as a
  column and broadcast along the rows' entries; the products are `dot_general`s and the biases vectors given a unit
  axis. Each spelling is the specification's layer on arrays with ANY number of rows; nothing has to be finite.
-/
import proofs.«165640_j38122129719954_2_alg».proof.Proof.SageSpec
import proofs.«165640_j38122129719954_2_alg».proof.Proof.LibColumnBroadcast
import Idealize.ShloMosaic.Lib.ValueLayout
import Idealize.ShloMosaic.Lib.Pipeline.Value

noncomputable section

open scoped BigOperators

namespace Cert.Sage

open Idealize.ShloMosaic Idealize.ShloMosaic.ValueIdx Cert.RowLayers Cert.DenseEdges

/-- Two arrays with the same rows are equal. -/
theorem eq_of_rows {a J : ℕ} (out out' : A2 a J) (h : ∀ r : Fin a, rowOf out r = rowOf out' r) : out = out' := by
  funext i
  obtain ⟨p, q, rfl⟩ : ∃ (p : Fin a) (q : Fin J), i = ix2 p q := ⟨i 0, i 1, eq_ix2 i⟩
  exact congrFun (h p) q

/-- A row of the neighbour sums scaled by the reciprocal column broadcast along the lanes. -/
theorem rowOf_scaled {a K : ℕ} (S : FVec Ideal ⟨2, ![a, K]⟩ .f32) (inv : FVec Ideal ⟨2, ![a, 1]⟩ .f32)
    (hS : (⟨2, ![a, 1]⟩ : Shape).Broadcasts ⟨2, ![a, K]⟩) (r : Fin a) :
    rowOf (mulf S (broadcastTo ⟨2, ![a, K]⟩ inv hS)) r = fun k => S (ix2 r k) * inv (ix2 r (0 : Fin 1)) := by
  funext k
  show mulf S (broadcastTo ⟨2, ![a, K]⟩ inv hS) (ix2 r k) = _
  rw [mulf_apply, Cert.ColumnBroadcast.broadcastTo_a1_ab_apply]

/-! ## The device's blocks -/

/-- Layers one and two on a block of rows. -/
theorem device_scaledLayer {a K J : ℕ} {d : DotDims ⟨2, ![a, K]⟩ ⟨2, ![K, J]⟩ ⟨2, ![a, J]⟩} (H : RowsTimesCols d) (z : Ideal .f32)
    (S x : FVec Ideal ⟨2, ![a, K]⟩ .f32) (inv : FVec Ideal ⟨2, ![a, 1]⟩ .f32) (wl wr : FVec Ideal ⟨2, ![K, J]⟩ .f32)
    (bl : FVec Ideal ⟨2, ![1, J]⟩ .f32)
    (hS : (⟨2, ![a, 1]⟩ : Shape).Broadcasts ⟨2, ![a, K]⟩) (hB : (⟨2, ![1, J]⟩ : Shape).Broadcasts ⟨2, ![a, J]⟩)
    (hb : FTy.bf16.bits < FTy.f32.bits) :
    maximumf
        (addf
          (addf
            (matmul d none (truncf .bf16 (mulf S (broadcastTo ⟨2, ![a, K]⟩ inv hS)) hb) (truncf .bf16 wl hb)
              (constant (F := Ideal) ⟨2, ![a, J]⟩ .f32 0x00000000#32))
            (matmul d none (truncf .bf16 x hb) (truncf .bf16 wr hb) (constant (F := Ideal) ⟨2, ![a, J]⟩ .f32 0x00000000#32)))
          (broadcastTo ⟨2, ![a, J]⟩ bl hB))
        (broadcast ⟨2, ![a, J]⟩ z)
      = scaledLayer z S inv x wl wr (rowOf bl 0) := by
  refine eq_of_rows _ _ fun r => ?_
  rw [rowOf_maximumf_splat]
  show _ = scaledRow z (rowOf S r) (inv (ix2 r (0 : Fin 1))) (rowOf x r) wl wr (rowOf bl 0)
  unfold scaledRow
  refine congrArg (relu z) (funext fun j => ?_)
  rw [rowOf_addf]
  show rowOf (addf _ _) r j + rowOf (broadcastTo ⟨2, ![a, J]⟩ bl hB) r j = _
  rw [rowOf_addf, rowOf_matmul_zero H, rowOf_matmul_zero H, rowOf_broadcastTo, rowOf_truncf, rowOf_truncf, rowOf_scaled]
  rfl

/-- The projection of a block of rows: one product into a zero accumulator. -/
theorem device_proj {a K J : ℕ} {d : DotDims ⟨2, ![a, K]⟩ ⟨2, ![K, J]⟩ ⟨2, ![a, J]⟩} (H : RowsTimesCols d)
    (h : FVec Ideal ⟨2, ![a, K]⟩ .f32) (w : FVec Ideal ⟨2, ![K, J]⟩ .f32) (hb : FTy.bf16.bits < FTy.f32.bits) :
    matmul d none (truncf .bf16 h hb) (truncf .bf16 w hb) (constant (F := Ideal) ⟨2, ![a, J]⟩ .f32 0x00000000#32) = proj h w := by
  refine eq_of_rows _ _ fun r => ?_
  rw [rowOf_matmul_zero H, rowOf_truncf]
  rfl

/-- The head on a block of rows. -/
theorem device_headLayer {a K J : ℕ} {d : DotDims ⟨2, ![a, K]⟩ ⟨2, ![K, J]⟩ ⟨2, ![a, J]⟩} (H : RowsTimesCols d)
    {d' : DotDims ⟨2, ![a, J]⟩ ⟨2, ![J, 1]⟩ ⟨2, ![a, 1]⟩} (H' : RowsTimesCols d') (z : Ideal .f32)
    (P : FVec Ideal ⟨2, ![a, J]⟩ .f32) (inv : FVec Ideal ⟨2, ![a, 1]⟩ .f32) (x : FVec Ideal ⟨2, ![a, K]⟩ .f32)
    (wr : FVec Ideal ⟨2, ![K, J]⟩ .f32) (bl : FVec Ideal ⟨2, ![1, J]⟩ .f32) (wreg : FVec Ideal ⟨2, ![J, 1]⟩ .f32)
    (br : FVec Ideal ⟨2, ![1, 1]⟩ .f32)
    (hS : (⟨2, ![a, 1]⟩ : Shape).Broadcasts ⟨2, ![a, J]⟩) (hB : (⟨2, ![1, J]⟩ : Shape).Broadcasts ⟨2, ![a, J]⟩)
    (hR : (⟨2, ![1, 1]⟩ : Shape).Broadcasts ⟨2, ![a, 1]⟩) (hb : FTy.bf16.bits < FTy.f32.bits) :
    addf
        (matmul d' none
          (truncf .bf16
            (maximumf
              (addf (addf (mulf P (broadcastTo ⟨2, ![a, J]⟩ inv hS)) (broadcastTo ⟨2, ![a, J]⟩ bl hB))
                (matmul d none (truncf .bf16 x hb) (truncf .bf16 wr hb) (constant (F := Ideal) ⟨2, ![a, J]⟩ .f32 0x00000000#32)))
              (broadcast ⟨2, ![a, J]⟩ z)) hb)
          (truncf .bf16 wreg hb) (constant (F := Ideal) ⟨2, ![a, 1]⟩ .f32 0x00000000#32))
        (broadcastTo ⟨2, ![a, 1]⟩ br hR)
      = headLayer z P inv x wr (rowOf bl 0) wreg (br (ix2 (0 : Fin 1) (0 : Fin 1))) := by
  refine eq_of_rows _ _ fun r => ?_
  funext u
  obtain rfl : u = 0 := Subsingleton.elim _ _
  rw [rowOf_addf]
  show rowOf (matmul d' none _ _ _) r 0 + rowOf (broadcastTo ⟨2, ![a, 1]⟩ br hR) r 0 = _
  rw [rowOf_matmul_zero H', rowOf_broadcastTo, rowOf_truncf, rowOf_maximumf_splat]
  show _ = headRow z (rowOf P r) (inv (ix2 r (0 : Fin 1))) (rowOf x r) wr (rowOf bl 0) wreg (br (ix2 (0 : Fin 1) (0 : Fin 1)))
  unfold headRow readout
  refine congrArg₂ (· + ·) (Finset.sum_congr rfl fun j _ => congrArg (· * _) ?_) rfl
  refine congrFun (congrArg (relu z) (funext fun j => ?_)) j
  rw [rowOf_addf]
  show rowOf (addf _ _) r j + rowOf (matmul d none _ _ _) r j = _
  rw [rowOf_addf, rowOf_matmul_zero H, rowOf_broadcastTo, rowOf_truncf, rowOf_scaled]
  rfl

/-! ## The host's whole arrays -/

/-- A row of the neighbour sums divided by the divisor vector viewed as a column and broadcast along the entries. -/
theorem rowOf_divided {a K : ℕ} (S : FVec Ideal ⟨2, ![a, K]⟩ .f32) (c : FVec Ideal ⟨1, ![a]⟩ .f32)
    (h1 : (⟨1, ![a]⟩ : Shape).BroadcastsInDim ⟨2, ![a, 1]⟩ ![0]) (h2 : (⟨2, ![a, 1]⟩ : Shape).BroadcastsInDim ⟨2, ![a, K]⟩ ![0, 1])
    (r : Fin a) :
    rowOf (Host.divf (F := Ideal) S (broadcastInDim ⟨2, ![a, K]⟩ ![0, 1] h2 (broadcastInDim ⟨2, ![a, 1]⟩ ![0] h1 c))) r
      = fun k => Ideal.div (S (ix2 r k)) (c (ix1 r)) := by
  funext k
  show FloatOps.hostDivf (S (ix2 r k)) (broadcastInDim ⟨2, ![a, K]⟩ ![0, 1] h2 (broadcastInDim ⟨2, ![a, 1]⟩ ![0] h1 c) (ix2 r k)) = _
  rw [broadcastInDim_apply ![0, 1] h2 _ (ix2 r k) (ix2 r (0 : Fin 1)) (by
        intro ax
        match ax with
        | ⟨0, _⟩ =>
          show r.val = if a = 1 then 0 else r.val
          split_ifs with h
          · have := r.isLt; omega
          · rfl
        | ⟨1, _⟩ => rfl),
    broadcastInDim_apply ![0] h1 c (ix2 r (0 : Fin 1)) (ix1 r) (by
        intro ax
        match ax with
        | ⟨0, _⟩ =>
          show r.val = if a = 1 then 0 else r.val
          split_ifs with h
          · have := r.isLt; omega
          · rfl)]
  rfl

/-- The host's layer on the whole array. -/
theorem host_meanLayer {a K J : ℕ} {d : DotDims ⟨2, ![a, K]⟩ ⟨2, ![K, J]⟩ ⟨2, ![a, J]⟩} (H : RowsTimesCols d) {s' : Shape}
    (wzero : BitVec 32) (S x : FVec Ideal ⟨2, ![a, K]⟩ .f32) (c : FVec Ideal ⟨1, ![a]⟩ .f32)
    (wl wr : FVec Ideal ⟨2, ![K, J]⟩ .f32) (bl : FVec Ideal ⟨1, ![J]⟩ .f32)
    (h1 : (⟨1, ![a]⟩ : Shape).BroadcastsInDim ⟨2, ![a, 1]⟩ ![0]) (h2 : (⟨2, ![a, 1]⟩ : Shape).BroadcastsInDim ⟨2, ![a, K]⟩ ![0, 1])
    (hb1 : (⟨1, ![J]⟩ : Shape).BroadcastsInDim ⟨2, ![1, J]⟩ ![1]) (hb2 : (⟨2, ![1, J]⟩ : Shape).BroadcastsInDim ⟨2, ![a, J]⟩ ![0, 1])
    (dims' : Fin s'.rank → Fin 2) (hz : s'.BroadcastsInDim ⟨2, ![a, J]⟩ dims') :
    maximumf
        (addf
          (addf
            (Host.dotGeneral (F := Ideal) d none
              (Host.divf (F := Ideal) S (broadcastInDim ⟨2, ![a, K]⟩ ![0, 1] h2 (broadcastInDim ⟨2, ![a, 1]⟩ ![0] h1 c))) wl)
            (broadcastInDim ⟨2, ![a, J]⟩ ![0, 1] hb2 (broadcastInDim ⟨2, ![1, J]⟩ ![1] hb1 bl)))
          (Host.dotGeneral (F := Ideal) d none x wr))
        (broadcastInDim ⟨2, ![a, J]⟩ dims' hz (constant (F := Ideal) s' .f32 wzero))
      = meanLayer (Ideal.ofBits .f32 wzero) S c x wl wr (fun j => bl (ix1 j)) := by
  refine eq_of_rows _ _ fun r => ?_
  rw [rowOf_maximumf_const, rowOf_addf, rowOf_dense_host H, rowOf_dotGeneral H, rowOf_divided]
  rfl

/-- The host's read-out on the whole array. -/
theorem host_readout {a J : ℕ} {d' : DotDims ⟨2, ![a, J]⟩ ⟨2, ![J, 1]⟩ ⟨2, ![a, 1]⟩} (H' : RowsTimesCols d')
    (h : FVec Ideal ⟨2, ![a, J]⟩ .f32) (wreg : FVec Ideal ⟨2, ![J, 1]⟩ .f32) (br : FVec Ideal ⟨1, ![1]⟩ .f32)
    (hr1 : (⟨1, ![1]⟩ : Shape).BroadcastsInDim ⟨2, ![1, 1]⟩ ![1]) (hr2 : (⟨2, ![1, 1]⟩ : Shape).BroadcastsInDim ⟨2, ![a, 1]⟩ ![0, 1]) :
    addf (Host.dotGeneral (F := Ideal) d' none h wreg)
        (broadcastInDim ⟨2, ![a, 1]⟩ ![0, 1] hr2 (broadcastInDim ⟨2, ![1, 1]⟩ ![1] hr1 br))
      = readoutLayer h wreg (br (ix1 (0 : Fin 1))) := by
  refine eq_of_rows _ _ fun r => ?_
  rw [rowOf_dense_host H']
  funext u
  obtain rfl : u = 0 := Subsingleton.elim _ _
  rfl

end Cert.Sage

end
-- ==== Proof.SageBlocks.lean ====
/-
  A block of rows against the whole array.

  Each layer's entry `(r, q)` depends only on row `r` of its row-indexed operands. So for blocks holding rows
  `R·n, R·n + 1, …` of the whole arrays (and the weights whole), the layer of the blocks at `(p, q)` is the layer of
  the whole arrays at `(R·n + p, q)`: the step from a row-tiled grid to one whole-array function.
-/
import proofs.«165640_j38122129719954_2_alg».proof.Proof.SageSpec

noncomputable section

open scoped BigOperators

namespace Cert.Sage

open Idealize.ShloMosaic Idealize.ShloMosaic.ValueIdx Cert.RowLayers

/-- `x0` holds rows `R·n …` of `X`: equal entries at indices whose rows differ by `R·n` and whose columns agree. -/
def IsRowBlock {A a K : ℕ} (R n : ℕ) (x0 : A2 a K) (X : A2 A K) : Prop :=
  ∀ (y : (⟨2, ![a, K]⟩ : Shape).Idx) (k : (⟨2, ![A, K]⟩ : Shape).Idx),
    (k 0).val = R * n + (y 0).val → (k 1).val = (y 1).val → x0 y = X k

theorem IsRowBlock.row {A a K : ℕ} {R n : ℕ} {x0 : A2 a K} {X : A2 A K} (h : IsRowBlock R n x0 X) (p : Fin a) (r : Fin A)
    (hr : r.val = R * n + p.val) : rowOf x0 p = rowOf X r :=
  funext fun k => h (ix2 p k) (ix2 r k) hr rfl

theorem scaledLayer_block {A a K J R : ℕ} (zero : EReal) (SS X : A2 A K) (INV : A2 A 1) (wl wr : A2 K J) (b : Fin J → EReal)
    (x0 x2 : A2 a K) (x1 : A2 a 1) (n : ℕ)
    (h0 : IsRowBlock R n x0 SS) (h1 : IsRowBlock R n x1 INV) (h2 : IsRowBlock R n x2 X)
    (y : (⟨2, ![a, J]⟩ : Shape).Idx) (i : (⟨2, ![A, J]⟩ : Shape).Idx)
    (hi0 : (i 0).val = R * n + (y 0).val) (hi1 : (i 1).val = (y 1).val) :
    scaledLayer zero x0 x1 x2 wl wr b y = scaledLayer zero SS INV X wl wr b i := by
  obtain ⟨p, q, rfl⟩ : ∃ (p : Fin a) (q : Fin J), y = ix2 p q := ⟨y 0, y 1, eq_ix2 y⟩
  obtain ⟨r, q', rfl⟩ : ∃ (r : Fin A) (q' : Fin J), i = ix2 r q' := ⟨i 0, i 1, eq_ix2 i⟩
  obtain rfl : q' = q := Fin.ext hi1
  rw [scaledLayer_ix2, scaledLayer_ix2, h0.row p r hi0, h2.row p r hi0, h1 (ix2 p 0) (ix2 r 0) hi0 rfl]

theorem proj_block {A a K J R : ℕ} (X : A2 A K) (w : A2 K J) (x0 : A2 a K) (n : ℕ) (h0 : IsRowBlock R n x0 X)
    (y : (⟨2, ![a, J]⟩ : Shape).Idx) (i : (⟨2, ![A, J]⟩ : Shape).Idx)
    (hi0 : (i 0).val = R * n + (y 0).val) (hi1 : (i 1).val = (y 1).val) :
    proj x0 w y = proj X w i := by
  obtain ⟨p, q, rfl⟩ : ∃ (p : Fin a) (q : Fin J), y = ix2 p q := ⟨y 0, y 1, eq_ix2 y⟩
  obtain ⟨r, q', rfl⟩ : ∃ (r : Fin A) (q' : Fin J), i = ix2 r q' := ⟨i 0, i 1, eq_ix2 i⟩
  obtain rfl : q' = q := Fin.ext hi1
  show (∑ k : Fin K, rowOf x0 p k * w (ix2 k _)) = ∑ k : Fin K, rowOf X r k * w (ix2 k _)
  rw [h0.row p r hi0]
  rfl

theorem headLayer_block {A a K J R : ℕ} (zero : EReal) (PP : A2 A J) (INV : A2 A 1) (X : A2 A K) (wr : A2 K J) (b : Fin J → EReal)
    (wreg : A2 J 1) (breg : EReal) (x0 : A2 a J) (x1 : A2 a 1) (x2 : A2 a K) (n : ℕ)
    (h0 : IsRowBlock R n x0 PP) (h1 : IsRowBlock R n x1 INV) (h2 : IsRowBlock R n x2 X)
    (y : (⟨2, ![a, 1]⟩ : Shape).Idx) (i : (⟨2, ![A, 1]⟩ : Shape).Idx)
    (hi0 : (i 0).val = R * n + (y 0).val) (hi1 : (i 1).val = (y 1).val) :
    headLayer zero x0 x1 x2 wr b wreg breg y = headLayer zero PP INV X wr b wreg breg i := by
  obtain ⟨p, q, rfl⟩ : ∃ (p : Fin a) (q : Fin 1), y = ix2 p q := ⟨y 0, y 1, eq_ix2 y⟩
  obtain ⟨r, q', rfl⟩ : ∃ (r : Fin A) (q' : Fin 1), i = ix2 r q' := ⟨i 0, i 1, eq_ix2 i⟩
  show headRow zero (rowOf x0 p) (x1 (ix2 p 0)) (rowOf x2 p) wr b wreg breg
      = headRow zero (rowOf PP r) (INV (ix2 r 0)) (rowOf X r) wr b wreg breg
  rw [h0.row p r hi0, h2.row p r hi0, h1 (ix2 p 0) (ix2 r 0) hi0 rfl]

end Cert.Sage

end
-- ==== Proof.Region0.lean ====
/-
  Region 0 of the idealized kernel: the first layer, on twenty blocks of 5000 rows.

  At grid point `t` the body reads rows `5000·t …` of the neighbour sums, of the reciprocal column and of the
  features, and the two weight matrices and the bias whole; what it stores is the scaled layer of those blocks.
  Because the layer's entry `(r, q)` depends only on row `r` of the row-indexed operands, that is block `t` of the
  scaled layer of the WHOLE arrays; the twenty blocks tile the output, so after the region the output array is the
  scaled layer of the arrays the region was entered with.
-/
import proofs.«165640_j38122129719954_2_alg».proof.Proof.Patched.KernelIdeal.Frame
import proofs.«165640_j38122129719954_2_alg».proof.Proof.SageForms
import proofs.«165640_j38122129719954_2_alg».proof.Proof.SageBlocks
import Idealize.ShloMosaic.Lib.Pipeline.Value
import Idealize.ShloMosaic.Lib.ValueLayout

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowLayers Cert.Sage

theorem zero2 : (![0, 0] : Fin 2 → Nat) = fun _ => 0 := funext fun a => by fin_cases a <;> rfl
theorem zero1 : (![0] : Fin 1 → Nat) = fun _ => 0 := funext fun a => by fin_cases a; rfl

variable (V : (c : Dev nD) → (b : Ref sig .tc) → Buf (Elt Ideal) ((c : Thread nD τ).loc b))

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 1) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)

/-- Window 0's block at point `t` holds rows `5000·t …` of its array. -/
theorem rows0_0 (c : Dev nD) (t : Fin cfg0.N) :
    IsRowBlock 5000 t.val (iblk0 V c 0 t : A2 5000 64) (V c main_v29 : A2 100000 64) := by
  intro y k h0 h1
  obtain ⟨e0, e1⟩ := idx0_0 t
  show V c main_v29 (((cfg0.win 0).blk t).view.emb y) = V c main_v29 k
  refine congrArg (V c main_v29) (funext fun a => Fin.ext ?_)
  match a with
  | ⟨0, _⟩ => show win0_0.index t (0 : Fin 2) * 5000 + 1 * (y 0).val = (k 0).val; omega
  | ⟨1, _⟩ => show win0_0.index t (1 : Fin 2) * 64 + 1 * (y 1).val = (k 1).val; omega

/-- Window 1's block at point `t` holds rows `5000·t …` of its array. -/
theorem rows0_1 (c : Dev nD) (t : Fin cfg0.N) :
    IsRowBlock 5000 t.val (iblk0 V c 1 t : A2 5000 1) (V c main_v12 : A2 100000 1) := by
  intro y k h0 h1
  obtain ⟨e0, e1⟩ := idx0_1 t
  show V c main_v12 (((cfg0.win 1).blk t).view.emb y) = V c main_v12 k
  refine congrArg (V c main_v12) (funext fun a => Fin.ext ?_)
  match a with
  | ⟨0, _⟩ => show win0_1.index t (0 : Fin 2) * 5000 + 1 * (y 0).val = (k 0).val; omega
  | ⟨1, _⟩ => show win0_1.index t (1 : Fin 2) * 1 + 1 * (y 1).val = (k 1).val; omega

/-- Window 2's block at point `t` holds rows `5000·t …` of its array. -/
theorem rows0_2 (c : Dev nD) (t : Fin cfg0.N) :
    IsRowBlock 5000 t.val (iblk0 V c 2 t : A2 5000 64) (V c main_arg0 : A2 100000 64) := by
  intro y k h0 h1
  obtain ⟨e0, e1⟩ := idx0_2 t
  show V c main_arg0 (((cfg0.win 2).blk t).view.emb y) = V c main_arg0 k
  refine congrArg (V c main_arg0) (funext fun a => Fin.ext ?_)
  match a with
  | ⟨0, _⟩ => show win0_2.index t (0 : Fin 2) * 5000 + 1 * (y 0).val = (k 0).val; omega
  | ⟨1, _⟩ => show win0_2.index t (1 : Fin 2) * 64 + 1 * (y 1).val = (k 1).val; omega

/-- Window 3's block is its whole array at every point. -/
theorem whole0_3 (c : Dev nD) (t : Fin cfg0.N) : (iblk0 V c 3 t : A2 64 64) = V c main_v13 := by
  funext y
  obtain ⟨e0, e1⟩ := idx0_3 t
  show V c main_v13 (((cfg0.win 3).blk t).view.emb y) = V c main_v13 y
  refine congrArg (V c main_v13) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- Window 4's block is its whole array at every point. -/
theorem whole0_4 (c : Dev nD) (t : Fin cfg0.N) : (iblk0 V c 4 t : A1 64) = V c main_arg3 := by
  funext y
  have e0 := idx0_4 t
  show V c main_arg3 (((cfg0.win 4).blk t).view.emb y) = V c main_arg3 y
  refine congrArg (V c main_arg3) (funext fun a => Fin.ext ?_)
  match a with
  | ⟨0, _⟩ => show win0_4.index t (0 : Fin 1) * 64 + 1 * (y 0).val = (y 0).val; omega

/-- Window 5's block is its whole array at every point. -/
theorem whole0_5 (c : Dev nD) (t : Fin cfg0.N) : (iblk0 V c 5 t : A2 64 64) = V c main_v14 := by
  funext y
  obtain ⟨e0, e1⟩ := idx0_5 t
  show V c main_v14 (((cfg0.win 5).blk t).view.emb y) = V c main_v14 y
  refine congrArg (V c main_v14) (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

theorem rtc64 : RowsTimesCols dot_S5000x64_S64x64_S5000x64_1_0_0_1_n_n :=
  ⟨rfl, rfl, fun _ _ => rfl, fun _ _ => rfl, fun _ _ => rfl, fun _ _ => rfl⟩

/-- What the body leaves in the output's staging buffer is the scaled layer of the blocks it read. -/
theorem out0_6_layer (x0 : Vec Ideal S5000x64 .f32) (x1 : Vec Ideal S5000x1 .f32) (x2 : Vec Ideal S5000x64 .f32)
    (x3 : Vec Ideal S64x64 .f32) (x4 : Vec Ideal S64 .f32) (x5 : Vec Ideal S64x64 .f32) :
    out0_6 (F := Ideal) x0 x1 x2 x3 x4 x5
      = scaledLayer (FloatOps.ofBits (F := Ideal) .f32 0x00000000#32) (x0 : A2 5000 64) x1 x2 x3 x5 (fun j => x4 (ix1 j)) := by
  unfold out0_6
  rw [View.canon_unit_zero zero2]
  simp only [View.ld_unit_zero (S := S5000x64) zero2, View.ld_unit_zero (S := S5000x1) zero2, View.ld_unit_zero (S := S64x64) zero2,
    View.ld_unit_zero (S := S64) zero1]
  unfold k0_pay1
  simp only [shapeCast_self]
  refine (device_scaledLayer rtc64 _ x0 x2 x1 x3 x5 _ _ _ _).trans ?_
  refine congrArg (scaledLayer _ (x0 : A2 5000 64) x1 x2 x3 x5) (funext fun j => ?_)
  exact shapeCast_a_1a_apply x4 _ 0 j

/-- The first layer of the arrays region 0 is entered with. -/
def layer1 (c : Dev nD) : A2 100000 64 :=
  scaledLayer (FloatOps.ofBits (F := Ideal) .f32 0x00000000#32) (V c main_v29 : A2 100000 64) (V c main_v12) (V c main_arg0)
    (V c main_v13) (V c main_v14) (fun j => V c main_arg3 (ix1 j))

/-- What point `t` writes back is block `t` of the first layer. -/
theorem flushed0_6 (c : Dev nD) (t : Fin cfg0.N) :
    (dat0 V c).flushed 6 t = ((cfg0.win 6).blk t).view.read (Elt Ideal) (layer1 V c) := by
  show (cfg0.win 6).cut (grid0.coords t) ((dat0 V c).after 6 t) = _
  rw [after0_6, out0_6_layer, whole0_3, whole0_4, whole0_5]
  funext y
  obtain ⟨e0, e1⟩ := idx0_6 t
  refine scaledLayer_block (R := 5000) _ _ _ _ _ _ _ _ _ _ t.val (rows0_0 V c t) (rows0_1 V c t) (rows0_2 V c t) y _ ?_ ?_
  · show win0_6.index t (0 : Fin 2) * 5000 + 1 * (y 0).val = 5000 * t.val + (y 0).val; omega
  · show win0_6.index t (1 : Fin 2) * 64 + 1 * (y 1).val = (y 1).val; omega

/-- An index of the array is in point `t`'s block iff each coordinate is in the block's range on its axis. -/
theorem mem_blk0_6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v30).slice (win0_6.rect t)).set ↔ _
  rw [View.set_slice_whole, Rect.mem_set_unit]
  exact Iff.rfl

/-- The twenty blocks of 5000 rows tile the array: row `r` is in the block of point `r / 5000`. -/
theorem cover0_6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := rfl
  refine ⟨⟨(i 0).val / 5000, by rw [hN]; omega⟩, flush0_6 _, ?_⟩
  rw [mem_blk0_6]
  obtain ⟨e0, e1⟩ := idx0_6 ⟨(i 0).val / 5000, by rw [hN]; omega⟩
  intro a
  match a with
  | ⟨0, _⟩ => show win0_6.index _ (0 : Fin 2) * 5000 ≤ (i 0).val ∧ (i 0).val < win0_6.index _ (0 : Fin 2) * 5000 + 5000; rw [e0]; show (i 0).val / 5000 * 5000 ≤ (i 0).val ∧ (i 0).val < (i 0).val / 5000 * 5000 + 5000; omega
  | ⟨1, _⟩ => show win0_6.index _ (1 : Fin 2) * 64 ≤ (i 1).val ∧ (i 1).val < win0_6.index _ (1 : Fin 2) * 64 + 64; rw [e1]; omega

/-- After region 0 its output array holds the first layer of the arrays the region was entered with. -/
theorem final0_6 (c : Dev nD) : (dat0 V c).arrAt 6 cfg0.N = layer1 V c :=
  (dat0 V c).arrAt_eq_of_cover 6 (layer1 V c) (fun t _ => flushed0_6 V c t) (cover0_6)

end Cert.KernelIdeal.Layer1

end
-- ==== Proof.Region1.lean ====
/-
  Region 1 of the idealized kernel: the second layer and the projection for the third, on twenty blocks of 5000 rows.

  At grid point `t` the body reads rows `5000·t …` of the neighbour sums of the first layer's output, of the
  reciprocal column and of that output, and three weight matrices and a bias whole. It stores the scaled layer of the
  blocks, and the product of that block with the third matrix. Both depend on their row-indexed operands row by row,
  so they are blocks of the second layer, and of its projection, of the WHOLE arrays; the blocks tile both outputs.
-/
import proofs.«165640_j38122129719954_2_alg».proof.Proof.Patched.KernelIdeal.Frame
import proofs.«165640_j38122129719954_2_alg».proof.Proof.SageForms
import proofs.«165640_j38122129719954_2_alg».proof.Proof.SageBlocks
import Idealize.ShloMosaic.Lib.Pipeline.Value
import Idealize.ShloMosaic.Lib.ValueLayout

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowLayers Cert.Sage

theorem zero2 : (![0, 0] : Fin 2 → Nat) = fun _ => 0 := funext fun a => by fin_cases a <;> rfl
theorem zero1 : (![0] : Fin 1 → Nat) = fun _ => 0 := funext fun a => by fin_cases a; rfl

variable (V : (c : Dev nD) → (b : Ref sig .tc) → Buf (Elt Ideal) ((c : Thread nD τ).loc b))

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 1) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)

/-- Window 0's block at point `t` holds rows `5000·t …` of its array. -/
theorem rows1_0 (c : Dev nD) (t : Fin cfg1.N) :
    IsRowBlock 5000 t.val (iblk1 V c 0 t : A2 5000 64) (V c main_v40 : A2 100000 64) := by
  intro y k h0 h1
  obtain ⟨e0, e1⟩ := idx1_0 t
  show V c main_v40 (((cfg1.win 0).blk t).view.emb y) = V c main_v40 k
  refine congrArg (V c main_v40) (funext fun a => Fin.ext ?_)
  match a with
  | ⟨0, _⟩ => show win1_0.index t (0 : Fin 2) * 5000 + 1 * (y 0).val = (k 0).val; omega
  | ⟨1, _⟩ => show win1_0.index t (1 : Fin 2) * 64 + 1 * (y 1).val = (k 1).val; omega

/-- Window 1's block at point `t` holds rows `5000·t …` of its array. -/
theorem rows1_1 (c : Dev nD) (t : Fin cfg1.N) :
    IsRowBlock 5000 t.val (iblk1 V c 1 t : A2 5000 1) (V c main_v12 : A2 100000 1) := by
  intro y k h0 h1
  obtain ⟨e0, e1⟩ := idx1_1 t
  show V c main_v12 (((cfg1.win 1).blk t).view.emb y) = V c main_v12 k
  refine congrArg (V c main_v12) (funext fun a => Fin.ext ?_)
  match a with
  | ⟨0, _⟩ => show win1_1.index t (0 : Fin 2) * 5000 + 1 * (y 0).val = (k 0).val; omega
  | ⟨1, _⟩ => show win1_1.index t (1 : Fin 2) * 1 + 1 * (y 1).val = (k 1).val; omega

/-- Window 2's block at point `t` holds rows `5000·t …` of its array. -/
theorem rows1_2 (c : Dev nD) (t : Fin cfg1.N) :
    IsRowBlock 5000 t.val (iblk1 V c 2 t : A2 5000 64) (V c main_v30 : A2 100000 64) := by
  intro y k h0 h1
  obtain ⟨e0, e1⟩ := idx1_2 t
  show V c main_v30 (((cfg1.win 2).blk t).view.emb y) = V c main_v30 k
  refine congrArg (V c main_v30) (funext fun a => Fin.ext ?_)
  match a with
  | ⟨0, _⟩ => show win1_2.index t (0 : Fin 2) * 5000 + 1 * (y 0).val = (k 0).val; omega
  | ⟨1, _⟩ => show win1_2.index t (1 : Fin 2) * 64 + 1 * (y 1).val = (k 1).val; omega

/-- Window 3's block is its whole array at every point. -/
theorem whole1_3 (c : Dev nD) (t : Fin cfg1.N) : (iblk1 V c 3 t : A2 64 64) = V c main_v15 := by
  funext y
  obtain ⟨e0, e1⟩ := idx1_3 t
  show V c main_v15 (((cfg1.win 3).blk t).view.emb y) = V c main_v15 y
  refine congrArg (V c main_v15) (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- Window 4's block is its whole array at every point. -/
theorem whole1_4 (c : Dev nD) (t : Fin cfg1.N) : (iblk1 V c 4 t : A1 64) = V c main_arg6 := by
  funext y
  have e0 := idx1_4 t
  show V c main_arg6 (((cfg1.win 4).blk t).view.emb y) = V c main_arg6 y
  refine congrArg (V c main_arg6) (funext fun a => Fin.ext ?_)
  match a with
  | ⟨0, _⟩ => show win1_4.index t (0 : Fin 1) * 64 + 1 * (y 0).val = (y 0).val; omega

/-- Window 5's block is its whole array at every point. -/
theorem whole1_5 (c : Dev nD) (t : Fin cfg1.N) : (iblk1 V c 5 t : A2 64 64) = V c main_v16 := by
  funext y
  obtain ⟨e0, e1⟩ := idx1_5 t
  show V c main_v16 (((cfg1.win 5).blk t).view.emb y) = V c main_v16 y
  refine congrArg (V c main_v16) (funext fun a => Fin.ext ?_)
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- Window 6's block is its whole array at every point. -/
theorem whole1_6 (c : Dev nD) (t : Fin cfg1.N) : (iblk1 V c 6 t : A2 64 32) = V c main_v17 := by
  funext y
  obtain ⟨e0, e1⟩ := idx1_6 t
  show V c main_v17 (((cfg1.win 6).blk t).view.emb y) = V c main_v17 y
  refine congrArg (V c main_v17) (funext fun a => Fin.ext ?_)
  match a with
  | ⟨0, _⟩ => show win1_6.index t (0 : Fin 2) * 64 + 1 * (y 0).val = (y 0).val; omega
  | ⟨1, _⟩ => show win1_6.index t (1 : Fin 2) * 32 + 1 * (y 1).val = (y 1).val; omega

theorem rtc64 : RowsTimesCols dot_S5000x64_S64x64_S5000x64_1_0_0_1_n_n :=
  ⟨rfl, rfl, fun _ _ => rfl, fun _ _ => rfl, fun _ _ => rfl, fun _ _ => rfl⟩
theorem rtc32 : RowsTimesCols dot_S5000x64_S64x32_S5000x32_1_0_0_1_n_n :=
  ⟨rfl, rfl, fun _ _ => rfl, fun _ _ => rfl, fun _ _ => rfl, fun _ _ => rfl⟩

/-- The value the body stores in the first output is the scaled layer of the blocks it read. -/
theorem pay1_layer (x0 : Vec Ideal S5000x64 .f32) (x1 : Vec Ideal S5000x1 .f32) (x2 : Vec Ideal S5000x64 .f32)
    (x3 : Vec Ideal S64x64 .f32) (x4 : Vec Ideal S64 .f32) (x5 : Vec Ideal S64x64 .f32) :
    k1_pay1 (F := Ideal) x0 x1 x2 x3 x5 x4
      = scaledLayer (FloatOps.ofBits (F := Ideal) .f32 0x00000000#32) (x0 : A2 5000 64) x1 x2 x3 x5 (fun j => x4 (ix1 j)) := by
  unfold k1_pay1
  simp only [shapeCast_self]
  refine (device_scaledLayer rtc64 _ x0 x2 x1 x3 x5 _ _ _ _).trans ?_
  refine congrArg (scaledLayer _ (x0 : A2 5000 64) x1 x2 x3 x5) (funext fun j => ?_)
  exact shapeCast_a_1a_apply x4 _ 0 j

theorem out1_7_layer (x0 : Vec Ideal S5000x64 .f32) (x1 : Vec Ideal S5000x1 .f32) (x2 : Vec Ideal S5000x64 .f32)
    (x3 : Vec Ideal S64x64 .f32) (x4 : Vec Ideal S64 .f32) (x5 : Vec Ideal S64x64 .f32) (x6 : Vec Ideal S64x32 .f32) :
    out1_7 (F := Ideal) x0 x1 x2 x3 x4 x5 x6
      = scaledLayer (FloatOps.ofBits (F := Ideal) .f32 0x00000000#32) (x0 : A2 5000 64) x1 x2 x3 x5 (fun j => x4 (ix1 j)) := by
  unfold out1_7
  rw [View.canon_unit_zero zero2]
  simp only [View.ld_unit_zero (S := S5000x64) zero2, View.ld_unit_zero (S := S5000x1) zero2, View.ld_unit_zero (S := S64x64) zero2,
    View.ld_unit_zero (S := S64) zero1]
  exact pay1_layer x0 x1 x2 x3 x4 x5

theorem out1_8_layer (x0 : Vec Ideal S5000x64 .f32) (x1 : Vec Ideal S5000x1 .f32) (x2 : Vec Ideal S5000x64 .f32)
    (x3 : Vec Ideal S64x64 .f32) (x4 : Vec Ideal S64 .f32) (x5 : Vec Ideal S64x64 .f32) (x6 : Vec Ideal S64x32 .f32) :
    out1_8 (F := Ideal) x0 x1 x2 x3 x4 x5 x6
      = proj (scaledLayer (FloatOps.ofBits (F := Ideal) .f32 0x00000000#32) (x0 : A2 5000 64) x1 x2 x3 x5 (fun j => x4 (ix1 j))) (x6 : A2 64 32) := by
  unfold out1_8
  rw [View.canon_unit_zero zero2]
  simp only [View.ld_unit_zero (S := S5000x64) zero2, View.ld_unit_zero (S := S5000x1) zero2, View.ld_unit_zero (S := S64x64) zero2,
    View.ld_unit_zero (S := S64) zero1, View.ld_unit_zero (S := S64x32) zero2]
  unfold k1_pay2
  simp only [shapeCast_self]
  rw [pay1_layer]
  exact device_proj rtc32 _ x6 _

/-- The second layer of the arrays region 1 is entered with. -/
def layer2 (c : Dev nD) : A2 100000 64 :=
  scaledLayer (FloatOps.ofBits (F := Ideal) .f32 0x00000000#32) (V c main_v40 : A2 100000 64) (V c main_v12) (V c main_v30)
    (V c main_v15) (V c main_v16) (fun j => V c main_arg6 (ix1 j))

/-- Its rows multiplied by the third layer's neighbour weights. -/
def proj3 (c : Dev nD) : A2 100000 32 := proj (layer2 V c) (V c main_v17 : A2 64 32)

/-- The scaled layer of the blocks at point `t` holds rows `5000·t …` of the second layer. -/
theorem rows_layer2 (c : Dev nD) (t : Fin cfg1.N) :
    IsRowBlock 5000 t.val
      (scaledLayer (FloatOps.ofBits (F := Ideal) .f32 0x00000000#32) (iblk1 V c 0 t : A2 5000 64) (iblk1 V c 1 t) (iblk1 V c 2 t)
        (V c main_v15) (V c main_v16) (fun j => V c main_arg6 (ix1 j)))
      (layer2 V c) :=
  fun y k h0 h1 => scaledLayer_block (R := 5000) _ _ _ _ _ _ _ _ _ _ t.val (rows1_0 V c t) (rows1_1 V c t) (rows1_2 V c t) y k h0 h1

theorem flushed1_7 (c : Dev nD) (t : Fin cfg1.N) :
    (dat1 V c).flushed 7 t = ((cfg1.win 7).blk t).view.read (Elt Ideal) (layer2 V c) := by
  show (cfg1.win 7).cut (grid1.coords t) ((dat1 V c).after 7 t) = _
  rw [after1_7, out1_7_layer, whole1_3, whole1_4, whole1_5]
  funext y
  obtain ⟨e0, e1⟩ := idx1_7 t
  refine rows_layer2 V c t y _ ?_ ?_
  · show win1_7.index t (0 : Fin 2) * 5000 + 1 * (y 0).val = 5000 * t.val + (y 0).val; omega
  · show win1_7.index t (1 : Fin 2) * 64 + 1 * (y 1).val = (y 1).val; omega

theorem flushed1_8 (c : Dev nD) (t : Fin cfg1.N) :
    (dat1 V c).flushed 8 t = ((cfg1.win 8).blk t).view.read (Elt Ideal) (proj3 V c) := by
  show (cfg1.win 8).cut (grid1.coords t) ((dat1 V c).after 8 t) = _
  rw [after1_8, out1_8_layer, whole1_3, whole1_4, whole1_5, whole1_6]
  funext y
  obtain ⟨e0, e1⟩ := idx1_8 t
  refine proj_block (R := 5000) _ _ _ t.val (rows_layer2 V c t) y _ ?_ ?_
  · show win1_8.index t (0 : Fin 2) * 5000 + 1 * (y 0).val = 5000 * t.val + (y 0).val; omega
  · show win1_8.index t (1 : Fin 2) * 32 + 1 * (y 1).val = (y 1).val; omega

/-- An index of the array is in point `t`'s block iff each coordinate is in the block's range on its axis. -/
theorem mem_blk1_7 (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v41_0).slice (win1_7.rect t)).set ↔ _
  rw [View.set_slice_whole, Rect.mem_set_unit]
  exact Iff.rfl

/-- The twenty blocks of 5000 rows tile the array: row `r` is in the block of point `r / 5000`. -/
theorem cover1_7 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := rfl
  refine ⟨⟨(i 0).val / 5000, by rw [hN]; omega⟩, flush1_7 _, ?_⟩
  rw [mem_blk1_7]
  obtain ⟨e0, e1⟩ := idx1_7 ⟨(i 0).val / 5000, by rw [hN]; omega⟩
  intro a
  match a with
  | ⟨0, _⟩ => show win1_7.index _ (0 : Fin 2) * 5000 ≤ (i 0).val ∧ (i 0).val < win1_7.index _ (0 : Fin 2) * 5000 + 5000; rw [e0]; show (i 0).val / 5000 * 5000 ≤ (i 0).val ∧ (i 0).val < (i 0).val / 5000 * 5000 + 5000; omega
  | ⟨1, _⟩ => show win1_7.index _ (1 : Fin 2) * 64 ≤ (i 1).val ∧ (i 1).val < win1_7.index _ (1 : Fin 2) * 64 + 64; rw [e1]; omega

/-- An index of the array is in point `t`'s block iff each coordinate is in the block's range on its axis. -/
theorem mem_blk1_8 (t : Fin cfg1.N) (i : S100000x32.Idx) :
    i ∈ ((cfg1.win 8).blk t).view.set ↔ ∀ a : Fin 2, win1_8.index t a * S5000x32.size a ≤ (i a).val ∧ (i a).val < win1_8.index t a * S5000x32.size a + S5000x32.size a := by
  show i ∈ ((View.whole main_v41_1).slice (win1_8.rect t)).set ↔ _
  rw [View.set_slice_whole, Rect.mem_set_unit]
  exact Iff.rfl

/-- The twenty blocks of 5000 rows tile the array: row `r` is in the block of point `r / 5000`. -/
theorem cover1_8 (i : S100000x32.Idx) :
    ∃ t : Fin cfg1.N, (cfg1.win 8).flush t = true ∧ i ∈ ((cfg1.win 8).blk t).view.set := by
  have hi0 : (i 0).val < 100000 := (i 0).isLt
  have hi1 : (i 1).val < 32 := (i 1).isLt
  have hN : cfg1.N = 20 := rfl
  refine ⟨⟨(i 0).val / 5000, by rw [hN]; omega⟩, flush1_8 _, ?_⟩
  rw [mem_blk1_8]
  obtain ⟨e0, e1⟩ := idx1_8 ⟨(i 0).val / 5000, by rw [hN]; omega⟩
  intro a
  match a with
  | ⟨0, _⟩ => show win1_8.index _ (0 : Fin 2) * 5000 ≤ (i 0).val ∧ (i 0).val < win1_8.index _ (0 : Fin 2) * 5000 + 5000; rw [e0]; show (i 0).val / 5000 * 5000 ≤ (i 0).val ∧ (i 0).val < (i 0).val / 5000 * 5000 + 5000; omega
  | ⟨1, _⟩ => show win1_8.index _ (1 : Fin 2) * 32 ≤ (i 1).val ∧ (i 1).val < win1_8.index _ (1 : Fin 2) * 32 + 32; rw [e1]; omega

/-- After region 1 its first output holds the second layer, its second output the projection. -/
theorem final1_7 (c : Dev nD) : (dat1 V c).arrAt 7 cfg1.N = layer2 V c :=
  (dat1 V c).arrAt_eq_of_cover 7 (layer2 V c) (fun t _ => flushed1_7 V c t) (cover1_7)
theorem final1_8 (c : Dev nD) : (dat1 V c).arrAt 8 cfg1.N = proj3 V c :=
  (dat1 V c).arrAt_eq_of_cover 8 (proj3 V c) (fun t _ => flushed1_8 V c t) (cover1_8)

end Cert.KernelIdeal.Layer2

end
-- ==== Proof.Region2.lean ====
/-
  Region 2 of the idealized kernel: the third layer from the projected neighbour sums, and the read-out, on twenty
  blocks of 5000 rows.

  At grid point `t` the body reads rows `5000·t …` of the summed projected rows, of the reciprocal column and of
  the second layer's output, and the bias, two weight matrices and the read-out bias whole; it stores one number per
  row. That is block `t` of the head of the WHOLE arrays, and the blocks tile the output column.
-/
import proofs.«165640_j38122129719954_2_alg».proof.Proof.Patched.KernelIdeal.Frame
import proofs.«165640_j38122129719954_2_alg».proof.Proof.SageForms
import proofs.«165640_j38122129719954_2_alg».proof.Proof.SageBlocks
import Idealize.ShloMosaic.Lib.Pipeline.Value
import Idealize.ShloMosaic.Lib.ValueLayout

set_option maxRecDepth 16384

noncomputable section

namespace Cert.KernelIdeal.Head

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowLayers Cert.Sage

theorem zero2 : (![0, 0] : Fin 2 → Nat) = fun _ => 0 := funext fun a => by fin_cases a <;> rfl
theorem zero1 : (![0] : Fin 1 → Nat) = fun _ => 0 := funext fun a => by fin_cases a; rfl

variable (V : (c : Dev nD) → (b : Ref sig .tc) → Buf (Elt Ideal) ((c : Thread nD τ).loc b))

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 1) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 1) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)

/-- Window 0's block at point `t` holds rows `5000·t …` of its array. -/
theorem rows2_0 (c : Dev nD) (t : Fin cfg2.N) :
    IsRowBlock 5000 t.val (iblk2 V c 0 t : A2 5000 32) (V c main_v51 : A2 100000 32) := by
  intro y k h0 h1
  obtain ⟨e0, e1⟩ := idx2_0 t
  show V c main_v51 (((cfg2.win 0).blk t).view.emb y) = V c main_v51 k
  refine congrArg (V c main_v51) (funext fun a => Fin.ext ?_)
  match a with
  | ⟨0, _⟩ => show win2_0.index t (0 : Fin 2) * 5000 + 1 * (y 0).val = (k 0).val; omega
  | ⟨1, _⟩ => show win2_0.index t (1 : Fin 2) * 32 + 1 * (y 1).val = (k 1).val; omega

/-- Window 1's block at point `t` holds rows `5000·t …` of its array. -/
theorem rows2_1 (c : Dev nD) (t : Fin cfg2.N) :
    IsRowBlock 5000 t.val (iblk2 V c 1 t : A2 5000 1) (V c main_v12 : A2 100000 1) := by
  intro y k h0 h1
  obtain ⟨e0, e1⟩ := idx2_1 t
  show V c main_v12 (((cfg2.win 1).blk t).view.emb y) = V c main_v12 k
  refine congrArg (V c main_v12) (funext fun a => Fin.ext ?_)
  match a with
  | ⟨0, _⟩ => show win2_1.index t (0 : Fin 2) * 5000 + 1 * (y 0).val = (k 0).val; omega
  | ⟨1, _⟩ => show win2_1.index t (1 : Fin 2) * 1 + 1 * (y 1).val = (k 1).val; omega

/-- Window 2's block at point `t` holds rows `5000·t …` of its array. -/
theorem rows2_2 (c : Dev nD) (t : Fin cfg2.N) :
    IsRowBlock 5000 t.val (iblk2 V c 2 t : A2 5000 64) (V c main_v41_0 : A2 100000 64) := by
  intro y k h0 h1
  obtain ⟨e0, e1⟩ := idx2_2 t
  show V c main_v41_0 (((cfg2.win 2).blk t).view.emb y) = V c main_v41_0 k
  refine congrArg (V c main_v41_0) (funext fun a => Fin.ext ?_)
  match a with
  | ⟨0, _⟩ => show win2_2.index t (0 : Fin 2) * 5000 + 1 * (y 0).val = (k 0).val; omega
  | ⟨1, _⟩ => show win2_2.index t (1 : Fin 2) * 64 + 1 * (y 1).val = (k 1).val; omega

/-- Window 3's block is its whole array at every point. -/
theorem whole2_3 (c : Dev nD) (t : Fin cfg2.N) : (iblk2 V c 3 t : A1 32) = V c main_arg9 := by
  funext y
  have e0 := idx2_3 t
  show V c main_arg9 (((cfg2.win 3).blk t).view.emb y) = V c main_arg9 y
  refine congrArg (V c main_arg9) (funext fun a => Fin.ext ?_)
  match a with
  | ⟨0, _⟩ => show win2_3.index t (0 : Fin 1) * 32 + 1 * (y 0).val = (y 0).val; omega

/-- Window 4's block is its whole array at every point. -/
theorem whole2_4 (c : Dev nD) (t : Fin cfg2.N) : (iblk2 V c 4 t : A2 64 32) = V c main_v18 := by
  funext y
  obtain ⟨e0, e1⟩ := idx2_4 t
  show V c main_v18 (((cfg2.win 4).blk t).view.emb y) = V c main_v18 y
  refine congrArg (V c main_v18) (funext fun a => Fin.ext ?_)
  match a with
  | ⟨0, _⟩ => show win2_4.index t (0 : Fin 2) * 64 + 1 * (y 0).val = (y 0).val; omega
  | ⟨1, _⟩ => show win2_4.index t (1 : Fin 2) * 32 + 1 * (y 1).val = (y 1).val; omega

/-- Window 5's block is its whole array at every point. -/
theorem whole2_5 (c : Dev nD) (t : Fin cfg2.N) : (iblk2 V c 5 t : A2 32 1) = V c main_v19 := by
  funext y
  obtain ⟨e0, e1⟩ := idx2_5 t
  show V c main_v19 (((cfg2.win 5).blk t).view.emb y) = V c main_v19 y
  refine congrArg (V c main_v19) (funext fun a => Fin.ext ?_)
  match a with
  | ⟨0, _⟩ => show win2_5.index t (0 : Fin 2) * 32 + 1 * (y 0).val = (y 0).val; omega
  | ⟨1, _⟩ => show win2_5.index t (1 : Fin 2) * 1 + 1 * (y 1).val = (y 1).val; omega

/-- Window 6's block is its whole array at every point. -/
theorem whole2_6 (c : Dev nD) (t : Fin cfg2.N) : (iblk2 V c 6 t : A1 1) = V c main_arg12 := by
  funext y
  have e0 := idx2_6 t
  show V c main_arg12 (((cfg2.win 6).blk t).view.emb y) = V c main_arg12 y
  refine congrArg (V c main_arg12) (funext fun a => Fin.ext ?_)
  match a with
  | ⟨0, _⟩ => show win2_6.index t (0 : Fin 1) * 1 + 1 * (y 0).val = (y 0).val; omega

theorem rtc32 : RowsTimesCols dot_S5000x64_S64x32_S5000x32_1_0_0_1_n_n :=
  ⟨rfl, rfl, fun _ _ => rfl, fun _ _ => rfl, fun _ _ => rfl, fun _ _ => rfl⟩
theorem rtc1 : RowsTimesCols dot_S5000x32_S32x1_S5000x1_1_0_0_1_n_n :=
  ⟨rfl, rfl, fun _ _ => rfl, fun _ _ => rfl, fun _ _ => rfl, fun _ _ => rfl⟩

/-- What the body leaves in the output's staging buffer is the head of the blocks it read. -/
theorem out2_7_layer (x0 : Vec Ideal S5000x32 .f32) (x1 : Vec Ideal S5000x1 .f32) (x2 : Vec Ideal S5000x64 .f32)
    (x3 : Vec Ideal S32 .f32) (x4 : Vec Ideal S64x32 .f32) (x5 : Vec Ideal S32x1 .f32) (x6 : Vec Ideal S1 .f32) :
    out2_7 (F := Ideal) x0 x1 x2 x3 x4 x5 x6
      = headLayer (FloatOps.ofBits (F := Ideal) .f32 0x00000000#32) (x0 : A2 5000 32) x1 (x2 : A2 5000 64) x4 (fun j => x3 (ix1 j)) x5
          (x6 (ix1 (0 : Fin 1))) := by
  unfold out2_7
  rw [View.canon_unit_zero zero2]
  simp only [View.ld_unit_zero (S := S5000x32) zero2, View.ld_unit_zero (S := S5000x1) zero2, View.ld_unit_zero (S := S5000x64) zero2,
    View.ld_unit_zero (S := S64x32) zero2, View.ld_unit_zero (S := S32x1) zero2, View.ld_unit_zero (S := S32) zero1,
    View.ld_unit_zero (S := S1) zero1]
  unfold k2_pay1
  simp only [shapeCast_self]
  refine (device_headLayer rtc32 rtc1 _ x0 x1 x2 x4 _ x5 _ _ _ _ _).trans ?_
  refine congrArg₂ (fun b r => headLayer _ (x0 : A2 5000 32) x1 (x2 : A2 5000 64) x4 b x5 r) (funext fun j => ?_) ?_
  · exact shapeCast_a_1a_apply x3 _ 0 j
  · exact shapeCast_a_1a_apply x6 _ 0 0

/-- The head of the arrays region 2 is entered with. -/
def head (c : Dev nD) : A2 100000 1 :=
  headLayer (FloatOps.ofBits (F := Ideal) .f32 0x00000000#32) (V c main_v51 : A2 100000 32) (V c main_v12) (V c main_v41_0 : A2 100000 64)
    (V c main_v18) (fun j => V c main_arg9 (ix1 j)) (V c main_v19) (V c main_arg12 (ix1 (0 : Fin 1)))

theorem flushed2_7 (c : Dev nD) (t : Fin cfg2.N) :
    (dat2 V c).flushed 7 t = ((cfg2.win 7).blk t).view.read (Elt Ideal) (head V c) := by
  show (cfg2.win 7).cut (grid2.coords t) ((dat2 V c).after 7 t) = _
  rw [after2_7, out2_7_layer, whole2_3, whole2_4, whole2_5, whole2_6]
  funext y
  obtain ⟨e0, e1⟩ := idx2_7 t
  refine headLayer_block (R := 5000) _ _ _ _ _ _ _ _ _ _ _ t.val (rows2_0 V c t) (rows2_1 V c t) (rows2_2 V c t) y _ ?_ ?_
  · show win2_7.index t (0 : Fin 2) * 5000 + 1 * (y 0).val = 5000 * t.val + (y 0).val; omega
  · show win2_7.index t (1 : Fin 2) * 1 + 1 * (y 1).val = (y 1).val; omega

/-- An index of the array is in point `t`'s block iff each coordinate is in the block's range on its axis. -/
theorem mem_blk2_7 (t : Fin cfg2.N) (i : S100000x1.Idx) :
    i ∈ ((cfg2.win 7).blk t).view.set ↔ ∀ a : Fin 2, win2_7.index t a * S5000x1.size a ≤ (i a).val ∧ (i a).val < win2_7.index t a * S5000x1.size a + S5000x1.size a := by
  show i ∈ ((View.whole main_v52).slice (win2_7.rect t)).set ↔ _
  rw [View.set_slice_whole, Rect.mem_set_unit]
  exact Iff.rfl

/-- The twenty blocks of 5000 rows tile the array: row `r` is in the block of point `r / 5000`. -/
theorem cover2_7 (i : S100000x1.Idx) :
    ∃ t : Fin cfg2.N, (cfg2.win 7).flush t = true ∧ i ∈ ((cfg2.win 7).blk t).view.set := by
  have hi0 : (i 0).val < 100000 := (i 0).isLt
  have hi1 : (i 1).val < 1 := (i 1).isLt
  have hN : cfg2.N = 20 := rfl
  refine ⟨⟨(i 0).val / 5000, by rw [hN]; omega⟩, flush2_7 _, ?_⟩
  rw [mem_blk2_7]
  obtain ⟨e0, e1⟩ := idx2_7 ⟨(i 0).val / 5000, by rw [hN]; omega⟩
  intro a
  match a with
  | ⟨0, _⟩ => show win2_7.index _ (0 : Fin 2) * 5000 ≤ (i 0).val ∧ (i 0).val < win2_7.index _ (0 : Fin 2) * 5000 + 5000; rw [e0]; show (i 0).val / 5000 * 5000 ≤ (i 0).val ∧ (i 0).val < (i 0).val / 5000 * 5000 + 5000; omega
  | ⟨1, _⟩ => show win2_7.index _ (1 : Fin 2) * 1 ≤ (i 1).val ∧ (i 1).val < win2_7.index _ (1 : Fin 2) * 1 + 1; rw [e1]; omega

/-- After region 2 its output column holds the head of the arrays the region was entered with. -/
theorem final2_7 (c : Dev nD) : (dat2 V c).arrAt 7 cfg2.N = head V c :=
  (dat2 V c).arrAt_eq_of_cover 7 (head V c) (fun t _ => flushed2_7 V c t) (cover2_7)

end Cert.KernelIdeal.Head

end
-- ==== Proof.KernelFold.lean ====
/-
  The idealized kernel's fold, computed: what the result array holds at the end, as one function of the launch arrays.

  The buffer contents at the seven segment boundaries are followed from the launch memory. A host stretch's results
  are its operations applied to the contents before it; a region's outputs are the layer functions of the arrays the
  region is entered with (the three region modules); every other buffer a later segment reads is carried unchanged
  across the segments that do not write it. Put together: the result is the head of the summed projected rows of the
  second layer, the second layer that of the summed rows of the first, the first that of the summed rows of the
  features, every sum over the same edge list and every scaling by the same reciprocal column.
-/
import proofs.«165640_j38122129719954_2_alg».proof.Proof.Patched.KernelIdeal.Frame
import proofs.«165640_j38122129719954_2_alg».proof.Proof.Region0
import proofs.«165640_j38122129719954_2_alg».proof.Proof.Region1
import proofs.«165640_j38122129719954_2_alg».proof.Proof.Region2
import Idealize.ShloMosaic.Lib.StableHlo.Run
import Idealize.ShloMosaic.PureOps.Ideal

set_option maxRecDepth 16384

noncomputable section

namespace Cert.KernelIdeal.Fold

open Idealize.ShloMosaic Idealize.ShloMosaic.TcCoe Idealize.ShloMosaic.Tactic Idealize.ShloMosaic.ValueIdx Idealize.SL.Sem
open Cert.KernelIdeal Cert.KernelIdeal.Gen Cert.RowLayers Cert.Sage

/-! ## The host operations' terms, named -/

/-- The edges' source numbers: row 0 of the edge list. -/
def srcOf (a1 : IVec S2x1600000 32) : IVec S1600000 32 :=
  shapeCast S1600000 (extractStridedSlice S1x1600000 ![0, 0] a1 slices_S2x1600000_S1x1600000_0_0) shapeCasts_S1x1600000_S1600000
/-- The edges' target numbers: row 1 of the edge list. -/
def dstOf (a1 : IVec S2x1600000 32) : IVec S1600000 32 :=
  shapeCast S1600000 (extractStridedSlice S1x1600000 ![1, 0] a1 slices_S2x1600000_S1x1600000_1_0) shapeCasts_S1x1600000_S1600000
/-- The target numbers as a column of start indices. -/
def dstCol (v3 : IVec S1600000 32) : IVec S1600000x1 32 := broadcastInDim S1600000x1 ![0] bcast_S1600000_S1600000x1_0 v3
/-- The source numbers, a negative one shifted up by the node count, as a column of start indices. -/
def srcCol (v1 : IVec S1600000 32) : IVec S1600000x1 32 :=
  broadcastInDim S1600000x1 ![0] bcast_S1600000_S1600000x1_0
    (select (cmpi CmpIPredicate.slt v1 (broadcastInDim S1600000 ![] bcast_S_S1600000 (constantI S_ 32 0#32)))
      (addi v1 (broadcastInDim S1600000 ![] bcast_S_S1600000 (constantI S_ 32 100000#32))) v1)
/-- The rows of a 64-wide table gathered at the sources and summed into the targets. -/
def agg64 (X : FVec Ideal S100000x64 .f32) (v1 v3 : IVec S1600000 32) : FVec Ideal S100000x64 .f32 :=
  Host.scatterAdd scatter_S100000x64_S1600000x1_S1600000x64_1_0_0_1
    (broadcastInDim S100000x64 ![] bcast_S_S100000x64 (constant S_ .f32 0x00000000#32)) (dstCol v3)
    (Host.gather gather_S100000x64_S1600000x1_S1600000x64_1_0_n_n_0_1_164 X (srcCol v1))
/-- The same for a 32-wide table. -/
def agg32 (X : FVec Ideal S100000x32 .f32) (v1 v3 : IVec S1600000 32) : FVec Ideal S100000x32 .f32 :=
  Host.scatterAdd scatter_S100000x32_S1600000x1_S1600000x32_1_0_0_1
    (broadcastInDim S100000x32 ![] bcast_S_S100000x32 (constant S_ .f32 0x00000000#32)) (dstCol v3)
    (Host.gather gather_S100000x32_S1600000x1_S1600000x32_1_0_n_n_0_1_132 X (srcCol v1))
/-- The number of edges arriving at each node, floored at one. -/
def divisor (v3 : IVec S1600000 32) : FVec Ideal S100000 .f32 :=
  maximumf
    (Host.scatterAdd scatter_S100000_S1600000x1_S1600000_n_0_0_1
      (broadcastInDim S100000 ![] bcast_S_S100000 (constant S_ .f32 0x00000000#32)) (dstCol v3)
      (broadcastInDim S1600000 ![] bcast_S_S1600000 (constant S_ .f32 0x3F800000#32)))
    (broadcastInDim S100000 ![] bcast_S_S100000 (constant S_ .f32 0x3F800000#32))
/-- Its reciprocal, as a column. -/
def invCol (v3 : IVec S1600000 32) : FVec Ideal S100000x1 .f32 :=
  shapeCast S100000x1 (Host.divf (broadcastInDim S100000 ![] bcast_S_S100000 (constant S_ .f32 0x3F800000#32)) (divisor v3))
    shapeCasts_S100000_S100000x1

/-- A buffer no operation of a stretch writes holds after the stretch what it held before. -/
macro "host_keep" : tactic => `(tactic|
  exact StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- A stretch's result, read as its operations applied to the contents before the stretch. -/
macro "host_read" : tactic => `(tactic|
  (simp only [hostOps0, hostOps1, hostOps2, hostOps3]; after_results_simp <;> rfl))

variable (m : (ℓ : Loc nD τ sig) → Buf (Elt Ideal) ℓ) (ρ : Dev nD → PrngReg)

/-! ## After the first stretch -/

theorem W1_v1 (c : Dev nD) : W1 m ρ c (Proc.devRef .tc main_v1) = (srcOf (m ((c : Thread nD τ).loc main_arg1))) := by
  show StableHlo.after hostOps0 (W0 m ρ c) (Proc.devRef .tc main_v1) = _
  unfold srcOf
  host_read

theorem W1_v3 (c : Dev nD) : W1 m ρ c (Proc.devRef .tc main_v3) = (dstOf (m ((c : Thread nD τ).loc main_arg1))) := by
  show StableHlo.after hostOps0 (W0 m ρ c) (Proc.devRef .tc main_v3) = _
  unfold dstOf
  host_read

theorem W1_v12 (c : Dev nD) : W1 m ρ c (Proc.devRef .tc main_v12) = (invCol (dstOf (m ((c : Thread nD τ).loc main_arg1)))) := by
  show StableHlo.after hostOps0 (W0 m ρ c) (Proc.devRef .tc main_v12) = _
  unfold invCol divisor dstCol dstOf
  host_read

theorem W1_v29 (c : Dev nD) : W1 m ρ c (Proc.devRef .tc main_v29) = (agg64 (m ((c : Thread nD τ).loc main_arg0)) (srcOf (m ((c : Thread nD τ).loc main_arg1))) (dstOf (m ((c : Thread nD τ).loc main_arg1)))) := by
  show StableHlo.after hostOps0 (W0 m ρ c) (Proc.devRef .tc main_v29) = _
  unfold agg64 srcCol dstCol srcOf dstOf
  host_read

theorem W1_v13 (c : Dev nD) : W1 m ρ c (Proc.devRef .tc main_v13) = (transpose S64x64 [1, 0] (m ((c : Thread nD τ).loc main_arg2)) transposes_S64x64_S64x64_1_0) := by
  show StableHlo.after hostOps0 (W0 m ρ c) (Proc.devRef .tc main_v13) = _
  host_read

theorem W1_v14 (c : Dev nD) : W1 m ρ c (Proc.devRef .tc main_v14) = (transpose S64x64 [1, 0] (m ((c : Thread nD τ).loc main_arg4)) transposes_S64x64_S64x64_1_0) := by
  show StableHlo.after hostOps0 (W0 m ρ c) (Proc.devRef .tc main_v14) = _
  host_read

theorem W1_v15 (c : Dev nD) : W1 m ρ c (Proc.devRef .tc main_v15) = (transpose S64x64 [1, 0] (m ((c : Thread nD τ).loc main_arg5)) transposes_S64x64_S64x64_1_0) := by
  show StableHlo.after hostOps0 (W0 m ρ c) (Proc.devRef .tc main_v15) = _
  host_read

theorem W1_v16 (c : Dev nD) : W1 m ρ c (Proc.devRef .tc main_v16) = (transpose S64x64 [1, 0] (m ((c : Thread nD τ).loc main_arg7)) transposes_S64x64_S64x64_1_0) := by
  show StableHlo.after hostOps0 (W0 m ρ c) (Proc.devRef .tc main_v16) = _
  host_read

theorem W1_v17 (c : Dev nD) : W1 m ρ c (Proc.devRef .tc main_v17) = (transpose S64x32 [1, 0] (m ((c : Thread nD τ).loc main_arg8)) transposes_S32x64_S64x32_1_0) := by
  show StableHlo.after hostOps0 (W0 m ρ c) (Proc.devRef .tc main_v17) = _
  host_read

theorem W1_v18 (c : Dev nD) : W1 m ρ c (Proc.devRef .tc main_v18) = (transpose S64x32 [1, 0] (m ((c : Thread nD τ).loc main_arg10)) transposes_S32x64_S64x32_1_0) := by
  show StableHlo.after hostOps0 (W0 m ρ c) (Proc.devRef .tc main_v18) = _
  host_read

theorem W1_v19 (c : Dev nD) : W1 m ρ c (Proc.devRef .tc main_v19) = (transpose S32x1 [1, 0] (m ((c : Thread nD τ).loc main_arg11)) transposes_S1x32_S32x1_1_0) := by
  show StableHlo.after hostOps0 (W0 m ρ c) (Proc.devRef .tc main_v19) = _
  host_read

theorem W1_arg0 (c : Dev nD) : W1 m ρ c (Proc.devRef .tc main_arg0) = (m ((c : Thread nD τ).loc main_arg0)) :=
  (show StableHlo.after hostOps0 (W0 m ρ c) (Proc.devRef .tc main_arg0) = W0 m ρ c (Proc.devRef .tc main_arg0) from by host_keep).trans rfl

theorem W1_arg3 (c : Dev nD) : W1 m ρ c (Proc.devRef .tc main_arg3) = (m ((c : Thread nD τ).loc main_arg3)) :=
  (show StableHlo.after hostOps0 (W0 m ρ c) (Proc.devRef .tc main_arg3) = W0 m ρ c (Proc.devRef .tc main_arg3) from by host_keep).trans rfl

theorem W1_arg6 (c : Dev nD) : W1 m ρ c (Proc.devRef .tc main_arg6) = (m ((c : Thread nD τ).loc main_arg6)) :=
  (show StableHlo.after hostOps0 (W0 m ρ c) (Proc.devRef .tc main_arg6) = W0 m ρ c (Proc.devRef .tc main_arg6) from by host_keep).trans rfl

theorem W1_arg9 (c : Dev nD) : W1 m ρ c (Proc.devRef .tc main_arg9) = (m ((c : Thread nD τ).loc main_arg9)) :=
  (show StableHlo.after hostOps0 (W0 m ρ c) (Proc.devRef .tc main_arg9) = W0 m ρ c (Proc.devRef .tc main_arg9) from by host_keep).trans rfl

theorem W1_arg12 (c : Dev nD) : W1 m ρ c (Proc.devRef .tc main_arg12) = (m ((c : Thread nD τ).loc main_arg12)) :=
  (show StableHlo.after hostOps0 (W0 m ρ c) (Proc.devRef .tc main_arg12) = W0 m ρ c (Proc.devRef .tc main_arg12) from by host_keep).trans rfl

/-! ## After region 0 -/

theorem W2_v30 (c : Dev nD) : W2 m ρ c (Proc.devRef .tc main_v30) = Layer1.layer1 (V1 m ρ) c :=
  (W2_arr m ρ c 6).trans (Layer1.final0_6 (V1 m ρ) c)
theorem W2_v1 (c : Dev nD) : W2 m ρ c (Proc.devRef .tc main_v1) = (srcOf (m ((c : Thread nD τ).loc main_arg1))) :=
  (W2_of_ne m ρ c main_v1 (by decide)).trans (W1_v1 m ρ c)
theorem W2_v3 (c : Dev nD) : W2 m ρ c (Proc.devRef .tc main_v3) = (dstOf (m ((c : Thread nD τ).loc main_arg1))) :=
  (W2_of_ne m ρ c main_v3 (by decide)).trans (W1_v3 m ρ c)
theorem W2_v12 (c : Dev nD) : W2 m ρ c (Proc.devRef .tc main_v12) = (invCol (dstOf (m ((c : Thread nD τ).loc main_arg1)))) :=
  ((W2_arr m ρ c 1).trans (((dat0 (V1 m ρ) c).arrAt_in 1 rfl _).trans (A_eq0 (V1 m ρ) c 1))).trans (W1_v12 m ρ c)
theorem W2_v15 (c : Dev nD) : W2 m ρ c (Proc.devRef .tc main_v15) = (transpose S64x64 [1, 0] (m ((c : Thread nD τ).loc main_arg5)) transposes_S64x64_S64x64_1_0) :=
  (W2_of_ne m ρ c main_v15 (by decide)).trans (W1_v15 m ρ c)
theorem W2_v16 (c : Dev nD) : W2 m ρ c (Proc.devRef .tc main_v16) = (transpose S64x64 [1, 0] (m ((c : Thread nD τ).loc main_arg7)) transposes_S64x64_S64x64_1_0) :=
  (W2_of_ne m ρ c main_v16 (by decide)).trans (W1_v16 m ρ c)
theorem W2_v17 (c : Dev nD) : W2 m ρ c (Proc.devRef .tc main_v17) = (transpose S64x32 [1, 0] (m ((c : Thread nD τ).loc main_arg8)) transposes_S32x64_S64x32_1_0) :=
  (W2_of_ne m ρ c main_v17 (by decide)).trans (W1_v17 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_v18 (c : Dev nD) : W2 m ρ c (Proc.devRef .tc main_v18) = (transpose S64x32 [1, 0] (m ((c : Thread nD τ).loc main_arg10)) transposes_S32x64_S64x32_1_0) :=
  (W2_of_ne m ρ c main_v18 (by decide)).trans (W1_v18 m ρ c)
theorem W2_v19 (c : Dev nD) : W2 m ρ c (Proc.devRef .tc main_v19) = (transpose S32x1 [1, 0] (m ((c : Thread nD τ).loc main_arg11)) transposes_S1x32_S32x1_1_0) :=
  (W2_of_ne m ρ c main_v19 (by decide)).trans (W1_v19 m ρ c)
theorem W2_arg12 (c : Dev nD) : W2 m ρ c (Proc.devRef .tc main_arg12) = (m ((c : Thread nD τ).loc main_arg12)) :=
  (W2_of_ne m ρ c main_arg12 (by decide)).trans (W1_arg12 m ρ c)

/-! ## After the second stretch -/

theorem W3_v40 (c : Dev nD) : W3 m ρ c (Proc.devRef .tc main_v40) = agg64 (Layer1.layer1 (V1 m ρ) c) (srcOf (m ((c : Thread nD τ).loc main_arg1))) (dstOf (m ((c : Thread nD τ).loc main_arg1))) := by
  rw [← W2_v30 m ρ c, ← W2_v1 m ρ c, ← W2_v3 m ρ c]
  show StableHlo.after hostOps1 (W2 m ρ c) (Proc.devRef .tc main_v40) = _
  unfold agg64 srcCol dstCol
  host_read
theorem W3_v30 (c : Dev nD) : W3 m ρ c (Proc.devRef .tc main_v30) = Layer1.layer1 (V1 m ρ) c :=
  (show StableHlo.after hostOps1 (W2 m ρ c) (Proc.devRef .tc main_v30) = W2 m ρ c (Proc.devRef .tc main_v30) from by host_keep).trans (W2_v30 m ρ c)
theorem W3_v1 (c : Dev nD) : W3 m ρ c (Proc.devRef .tc main_v1) = (srcOf (m ((c : Thread nD τ).loc main_arg1))) :=
  (show StableHlo.after hostOps1 (W2 m ρ c) (Proc.devRef .tc main_v1) = W2 m ρ c (Proc.devRef .tc main_v1) from by host_keep).trans (W2_v1 m ρ c)
theorem W3_v3 (c : Dev nD) : W3 m ρ c (Proc.devRef .tc main_v3) = (dstOf (m ((c : Thread nD τ).loc main_arg1))) :=
  (show StableHlo.after hostOps1 (W2 m ρ c) (Proc.devRef .tc main_v3) = W2 m ρ c (Proc.devRef .tc main_v3) from by host_keep).trans (W2_v3 m ρ c)
theorem W3_v12 (c : Dev nD) : W3 m ρ c (Proc.devRef .tc main_v12) = (invCol (dstOf (m ((c : Thread nD τ).loc main_arg1)))) :=
  (show StableHlo.after hostOps1 (W2 m ρ c) (Proc.devRef .tc main_v12) = W2 m ρ c (Proc.devRef .tc main_v12) from by host_keep).trans (W2_v12 m ρ c)
theorem W3_v15 (c : Dev nD) : W3 m ρ c (Proc.devRef .tc main_v15) = (transpose S64x64 [1, 0] (m ((c : Thread nD τ).loc main_arg5)) transposes_S64x64_S64x64_1_0) :=
  (show StableHlo.after hostOps1 (W2 m ρ c) (Proc.devRef .tc main_v15) = W2 m ρ c (Proc.devRef .tc main_v15) from by host_keep).trans (W2_v15 m ρ c)
theorem W3_v16 (c : Dev nD) : W3 m ρ c (Proc.devRef .tc main_v16) = (transpose S64x64 [1, 0] (m ((c : Thread nD τ).loc main_arg7)) transposes_S64x64_S64x64_1_0) :=
  (show StableHlo.after hostOps1 (W2 m ρ c) (Proc.devRef .tc main_v16) = W2 m ρ c (Proc.devRef .tc main_v16) from by host_keep).trans (W2_v16 m ρ c)
theorem W3_v17 (c : Dev nD) : W3 m ρ c (Proc.devRef .tc main_v17) = (transpose S64x32 [1, 0] (m ((c : Thread nD τ).loc main_arg8)) transposes_S32x64_S64x32_1_0) :=
  (show StableHlo.after hostOps1 (W2 m ρ c) (Proc.devRef .tc main_v17) = W2 m ρ c (Proc.devRef .tc main_v17) from by host_keep).trans (W2_v17 m ρ c)
theorem W3_arg6 (c : Dev nD) : W3 m ρ c (Proc.devRef .tc main_arg6) = (m ((c : Thread nD τ).loc main_arg6)) :=
  (show StableHlo.after hostOps1 (W2 m ρ c) (Proc.devRef .tc main_arg6) = W2 m ρ c (Proc.devRef .tc main_arg6) from by host_keep).trans (W2_arg6 m ρ c)
theorem W3_arg9 (c : Dev nD) : W3 m ρ c (Proc.devRef .tc main_arg9) = (m ((c : Thread nD τ).loc main_arg9)) :=
  (show StableHlo.after hostOps1 (W2 m ρ c) (Proc.devRef .tc main_arg9) = W2 m ρ c (Proc.devRef .tc main_arg9) from by host_keep).trans (W2_arg9 m ρ c)
theorem W3_v18 (c : Dev nD) : W3 m ρ c (Proc.devRef .tc main_v18) = (transpose S64x32 [1, 0] (m ((c : Thread nD τ).loc main_arg10)) transposes_S32x64_S64x32_1_0) :=
  (show StableHlo.after hostOps1 (W2 m ρ c) (Proc.devRef .tc main_v18) = W2 m ρ c (Proc.devRef .tc main_v18) from by host_keep).trans (W2_v18 m ρ c)
theorem W3_v19 (c : Dev nD) : W3 m ρ c (Proc.devRef .tc main_v19) = (transpose S32x1 [1, 0] (m ((c : Thread nD τ).loc main_arg11)) transposes_S1x32_S32x1_1_0) :=
  (show StableHlo.after hostOps1 (W2 m ρ c) (Proc.devRef .tc main_v19) = W2 m ρ c (Proc.devRef .tc main_v19) from by host_keep).trans (W2_v19 m ρ c)
theorem W3_arg12 (c : Dev nD) : W3 m ρ c (Proc.devRef .tc main_arg12) = (m ((c : Thread nD τ).loc main_arg12)) :=
  (show StableHlo.after hostOps1 (W2 m ρ c) (Proc.devRef .tc main_arg12) = W2 m ρ c (Proc.devRef .tc main_arg12) from by host_keep).trans (W2_arg12 m ρ c)

/-! ## After region 1 -/

theorem W4_v41_0 (c : Dev nD) : W4 m ρ c (Proc.devRef .tc main_v41_0) = Layer2.layer2 (V3 m ρ) c :=
  (W4_arr m ρ c 7).trans (Layer2.final1_7 (V3 m ρ) c)
theorem W4_v41_1 (c : Dev nD) : W4 m ρ c (Proc.devRef .tc main_v41_1) = Layer2.proj3 (V3 m ρ) c :=
  (W4_arr m ρ c 8).trans (Layer2.final1_8 (V3 m ρ) c)
theorem W4_v1 (c : Dev nD) : W4 m ρ c (Proc.devRef .tc main_v1) = (srcOf (m ((c : Thread nD τ).loc main_arg1))) :=
  (W4_of_ne m ρ c main_v1 (by decide)).trans (W3_v1 m ρ c)
theorem W4_v3 (c : Dev nD) : W4 m ρ c (Proc.devRef .tc main_v3) = (dstOf (m ((c : Thread nD τ).loc main_arg1))) :=
  (W4_of_ne m ρ c main_v3 (by decide)).trans (W3_v3 m ρ c)
theorem W4_v12 (c : Dev nD) : W4 m ρ c (Proc.devRef .tc main_v12) = (invCol (dstOf (m ((c : Thread nD τ).loc main_arg1)))) :=
  ((W4_arr m ρ c 1).trans (((dat1 (V3 m ρ) c).arrAt_in 1 rfl _).trans (A_eq1 (V3 m ρ) c 1))).trans (W3_v12 m ρ c)
theorem W4_arg9 (c : Dev nD) : W4 m ρ c (Proc.devRef .tc main_arg9) = (m ((c : Thread nD τ).loc main_arg9)) :=
  (W4_of_ne m ρ c main_arg9 (by decide)).trans (W3_arg9 m ρ c)
theorem W4_v18 (c : Dev nD) : W4 m ρ c (Proc.devRef .tc main_v18) = (transpose S64x32 [1, 0] (m ((c : Thread nD τ).loc main_arg10)) transposes_S32x64_S64x32_1_0) :=
  (W4_of_ne m ρ c main_v18 (by decide)).trans (W3_v18 m ρ c)
theorem W4_v19 (c : Dev nD) : W4 m ρ c (Proc.devRef .tc main_v19) = (transpose S32x1 [1, 0] (m ((c : Thread nD τ).loc main_arg11)) transposes_S1x32_S32x1_1_0) :=
  (W4_of_ne m ρ c main_v19 (by decide)).trans (W3_v19 m ρ c)
theorem W4_arg12 (c : Dev nD) : W4 m ρ c (Proc.devRef .tc main_arg12) = (m ((c : Thread nD τ).loc main_arg12)) :=
  (W4_of_ne m ρ c main_arg12 (by decide)).trans (W3_arg12 m ρ c)

/-! ## After the third stretch -/

theorem W5_v51 (c : Dev nD) : W5 m ρ c (Proc.devRef .tc main_v51) = agg32 (Layer2.proj3 (V3 m ρ) c) (srcOf (m ((c : Thread nD τ).loc main_arg1))) (dstOf (m ((c : Thread nD τ).loc main_arg1))) := by
  rw [← W4_v41_1 m ρ c, ← W4_v1 m ρ c, ← W4_v3 m ρ c]
  show StableHlo.after hostOps2 (W4 m ρ c) (Proc.devRef .tc main_v51) = _
  unfold agg32 srcCol dstCol
  host_read
theorem W5_v41_0 (c : Dev nD) : W5 m ρ c (Proc.devRef .tc main_v41_0) = Layer2.layer2 (V3 m ρ) c :=
  (show StableHlo.after hostOps2 (W4 m ρ c) (Proc.devRef .tc main_v41_0) = W4 m ρ c (Proc.devRef .tc main_v41_0) from by host_keep).trans (W4_v41_0 m ρ c)
theorem W5_v12 (c : Dev nD) : W5 m ρ c (Proc.devRef .tc main_v12) = (invCol (dstOf (m ((c : Thread nD τ).loc main_arg1)))) :=
  (show StableHlo.after hostOps2 (W4 m ρ c) (Proc.devRef .tc main_v12) = W4 m ρ c (Proc.devRef .tc main_v12) from by host_keep).trans (W4_v12 m ρ c)
theorem W5_arg9 (c : Dev nD) : W5 m ρ c (Proc.devRef .tc main_arg9) = (m ((c : Thread nD τ).loc main_arg9)) :=
  (show StableHlo.after hostOps2 (W4 m ρ c) (Proc.devRef .tc main_arg9) = W4 m ρ c (Proc.devRef .tc main_arg9) from by host_keep).trans (W4_arg9 m ρ c)
theorem W5_v18 (c : Dev nD) : W5 m ρ c (Proc.devRef .tc main_v18) = (transpose S64x32 [1, 0] (m ((c : Thread nD τ).loc main_arg10)) transposes_S32x64_S64x32_1_0) :=
  (show StableHlo.after hostOps2 (W4 m ρ c) (Proc.devRef .tc main_v18) = W4 m ρ c (Proc.devRef .tc main_v18) from by host_keep).trans (W4_v18 m ρ c)
theorem W5_v19 (c : Dev nD) : W5 m ρ c (Proc.devRef .tc main_v19) = (transpose S32x1 [1, 0] (m ((c : Thread nD τ).loc main_arg11)) transposes_S1x32_S32x1_1_0) :=
  (show StableHlo.after hostOps2 (W4 m ρ c) (Proc.devRef .tc main_v19) = W4 m ρ c (Proc.devRef .tc main_v19) from by host_keep).trans (W4_v19 m ρ c)
theorem W5_arg12 (c : Dev nD) : W5 m ρ c (Proc.devRef .tc main_arg12) = (m ((c : Thread nD τ).loc main_arg12)) :=
  (show StableHlo.after hostOps2 (W4 m ρ c) (Proc.devRef .tc main_arg12) = W4 m ρ c (Proc.devRef .tc main_arg12) from by host_keep).trans (W4_arg12 m ρ c)

/-! ## After region 2, and the last stretch -/

theorem W6_v52 (c : Dev nD) : W6 m ρ c (Proc.devRef .tc main_v52) = Head.head (V5 m ρ) c :=
  (W6_arr m ρ c 7).trans (Head.final2_7 (V5 m ρ) c)

theorem W7_v53 (c : Dev nD) :
    W7 m ρ c (Proc.devRef .tc main_v53) = shapeCast S100000 (Head.head (V5 m ρ) c : FVec Ideal S100000x1 .f32) shapeCasts_S100000x1_S100000 := by
  rw [← W6_v52 m ρ c]
  show StableHlo.after hostOps3 (W6 m ρ c) (Proc.devRef .tc main_v53) = _
  host_read

/-! ## The three layers in closed form -/

/-- The rectifier's threshold, the word of `0.0`. -/
abbrev zeroF : EReal := FloatOps.ofBits (F := Ideal) .f32 0x00000000#32

/-- The first layer of the launch arrays. -/
def h1 (c : Dev nD) : A2 100000 64 :=
  scaledLayer zeroF (agg64 (m ((c : Thread nD τ).loc main_arg0)) (srcOf (m ((c : Thread nD τ).loc main_arg1))) (dstOf (m ((c : Thread nD τ).loc main_arg1))) : A2 100000 64) (invCol (dstOf (m ((c : Thread nD τ).loc main_arg1)))) (m ((c : Thread nD τ).loc main_arg0))
    (transpose S64x64 [1, 0] (m ((c : Thread nD τ).loc main_arg2)) transposes_S64x64_S64x64_1_0) (transpose S64x64 [1, 0] (m ((c : Thread nD τ).loc main_arg4)) transposes_S64x64_S64x64_1_0) (fun j => (m ((c : Thread nD τ).loc main_arg3)) (ix1 j))
/-- The second layer. -/
def h2 (c : Dev nD) : A2 100000 64 :=
  scaledLayer zeroF (agg64 (h1 m c) (srcOf (m ((c : Thread nD τ).loc main_arg1))) (dstOf (m ((c : Thread nD τ).loc main_arg1))) : A2 100000 64) (invCol (dstOf (m ((c : Thread nD τ).loc main_arg1)))) (h1 m c)
    (transpose S64x64 [1, 0] (m ((c : Thread nD τ).loc main_arg5)) transposes_S64x64_S64x64_1_0) (transpose S64x64 [1, 0] (m ((c : Thread nD τ).loc main_arg7)) transposes_S64x64_S64x64_1_0) (fun j => (m ((c : Thread nD τ).loc main_arg6)) (ix1 j))
/-- The head. -/
def out (c : Dev nD) : A2 100000 1 :=
  headLayer zeroF (agg32 (proj (h2 m c) ((transpose S64x32 [1, 0] (m ((c : Thread nD τ).loc main_arg8)) transposes_S32x64_S64x32_1_0) : A2 64 32)) (srcOf (m ((c : Thread nD τ).loc main_arg1))) (dstOf (m ((c : Thread nD τ).loc main_arg1))) : A2 100000 32) (invCol (dstOf (m ((c : Thread nD τ).loc main_arg1)))) (h2 m c)
    (transpose S64x32 [1, 0] (m ((c : Thread nD τ).loc main_arg10)) transposes_S32x64_S64x32_1_0) (fun j => (m ((c : Thread nD τ).loc main_arg9)) (ix1 j)) (transpose S32x1 [1, 0] (m ((c : Thread nD τ).loc main_arg11)) transposes_S1x32_S32x1_1_0) ((m ((c : Thread nD τ).loc main_arg12)) (ix1 (0 : Fin 1)))

theorem layer1_eq (c : Dev nD) : Layer1.layer1 (V1 m ρ) c = h1 m c := by
  unfold Layer1.layer1 h1
  show scaledLayer _ (W1 m ρ c (Proc.devRef .tc main_v29) : A2 100000 64) (W1 m ρ c (Proc.devRef .tc main_v12)) (W1 m ρ c (Proc.devRef .tc main_arg0))
      (W1 m ρ c (Proc.devRef .tc main_v13)) (W1 m ρ c (Proc.devRef .tc main_v14)) (fun j => W1 m ρ c (Proc.devRef .tc main_arg3) (ix1 j)) = _
  rw [W1_v29, W1_v12, W1_arg0, W1_v13, W1_v14, W1_arg3]

theorem layer2_eq (c : Dev nD) : Layer2.layer2 (V3 m ρ) c = h2 m c := by
  unfold Layer2.layer2 h2
  show scaledLayer _ (W3 m ρ c (Proc.devRef .tc main_v40) : A2 100000 64) (W3 m ρ c (Proc.devRef .tc main_v12)) (W3 m ρ c (Proc.devRef .tc main_v30))
      (W3 m ρ c (Proc.devRef .tc main_v15)) (W3 m ρ c (Proc.devRef .tc main_v16)) (fun j => W3 m ρ c (Proc.devRef .tc main_arg6) (ix1 j)) = _
  rw [W3_v40, W3_v12, W3_v30, W3_v15, W3_v16, W3_arg6, layer1_eq]

theorem proj3_eq (c : Dev nD) : Layer2.proj3 (V3 m ρ) c = proj (h2 m c) ((transpose S64x32 [1, 0] (m ((c : Thread nD τ).loc main_arg8)) transposes_S32x64_S64x32_1_0) : A2 64 32) := by
  unfold Layer2.proj3
  rw [layer2_eq]
  show proj (h2 m c) (W3 m ρ c (Proc.devRef .tc main_v17) : A2 64 32) = _
  rw [W3_v17]

theorem head_eq (c : Dev nD) : Head.head (V5 m ρ) c = out m c := by
  unfold Head.head out
  show headLayer _ (W5 m ρ c (Proc.devRef .tc main_v51) : A2 100000 32) (W5 m ρ c (Proc.devRef .tc main_v12)) (W5 m ρ c (Proc.devRef .tc main_v41_0) : A2 100000 64)
      (W5 m ρ c (Proc.devRef .tc main_v18)) (fun j => W5 m ρ c (Proc.devRef .tc main_arg9) (ix1 j)) (W5 m ρ c (Proc.devRef .tc main_v19))
      (W5 m ρ c (Proc.devRef .tc main_arg12) (ix1 (0 : Fin 1))) = _
  rw [W5_v51, W5_v12, W5_v41_0, W5_v18, W5_arg9, W5_v19, W5_arg12, proj3_eq, layer2_eq]

/-- The head's column viewed as a vector. -/
def result (c : Dev nD) : FVec Ideal S100000 .f32 :=
  shapeCast S100000 (out m c : FVec Ideal S100000x1 .f32) shapeCasts_S100000x1_S100000

/-- THE RESULT: at the end the result array is the head's column, viewed as a vector. -/
theorem result_eq (c : Dev nD) : W7 m ρ c (Proc.devRef .tc main_v53) = result m c := by
  rw [W7_v53, head_eq]; rfl

end Cert.KernelIdeal.Fold

end
-- ==== Proof.RefValue.lean ====
/-
  The reference's result, read as three mean layers and a read-out.

  The generated run states the reference's result array as one composed term of the argument arrays: three times
  "gather the rows at the sources, scatter-add them at the targets, divide by the divisor vector broadcast to a
  column and along the entries, two `dot_general`s with a bias vector between them, a maximum with zero", then one
  more `dot_general` with its bias, viewed as a vector. Each of the three is the specification's mean layer of the
  whole arrays and the last is its read-out (the host spellings of the forms module); the gathers, scatter-adds and the
  divisor keep their printed terms, named here as in the kernel's fold.
-/
import proofs.«165640_j38122129719954_2_alg».proof.Proof.Gen.ReferenceIdeal.Run
import proofs.«165640_j38122129719954_2_alg».proof.Proof.SageForms

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.RowLayers Cert.Sage

/-- The edges' source numbers: row 0 of the edge list. -/
def srcOf (a1 : IVec S2x1600000 32) : IVec S1600000 32 :=
  shapeCast S1600000 (extractStridedSlice S1x1600000 ![0, 0] a1 slices_S2x1600000_S1x1600000_0_0) shapeCasts_S1x1600000_S1600000
/-- The edges' target numbers: row 1 of the edge list. -/
def dstOf (a1 : IVec S2x1600000 32) : IVec S1600000 32 :=
  shapeCast S1600000 (extractStridedSlice S1x1600000 ![1, 0] a1 slices_S2x1600000_S1x1600000_1_0) shapeCasts_S1x1600000_S1600000
/-- The target numbers as a column of start indices. -/
def dstCol (v3 : IVec S1600000 32) : IVec S1600000x1 32 := broadcastInDim S1600000x1 ![0] bcast_S1600000_S1600000x1_0 v3
/-- The source numbers, a negative one shifted up by the node count, as a column of start indices. -/
def srcCol (v1 : IVec S1600000 32) : IVec S1600000x1 32 :=
  broadcastInDim S1600000x1 ![0] bcast_S1600000_S1600000x1_0
    (select (cmpi CmpIPredicate.slt v1 (broadcastInDim S1600000 ![] bcast_S_S1600000 (constantI S_ 32 0#32)))
      (addi v1 (broadcastInDim S1600000 ![] bcast_S_S1600000 (constantI S_ 32 100000#32))) v1)
/-- The rows of a 64-wide table gathered at the sources and summed into the targets. -/
def agg64 (X : FVec Ideal S100000x64 .f32) (v1 v3 : IVec S1600000 32) : FVec Ideal S100000x64 .f32 :=
  Host.scatterAdd scatter_S100000x64_S1600000x1_S1600000x64_1_0_0_1
    (broadcastInDim S100000x64 ![] bcast_S_S100000x64 (constant S_ .f32 0x00000000#32)) (dstCol v3)
    (Host.gather gather_S100000x64_S1600000x1_S1600000x64_1_0_n_n_0_1_164 X (srcCol v1))
/-- The number of edges arriving at each node, floored at one. -/
def divisor (v3 : IVec S1600000 32) : FVec Ideal S100000 .f32 :=
  maximumf
    (Host.scatterAdd scatter_S100000_S1600000x1_S1600000_n_0_0_1
      (broadcastInDim S100000 ![] bcast_S_S100000 (constant S_ .f32 0x00000000#32)) (dstCol v3)
      (broadcastInDim S1600000 ![] bcast_S_S1600000 (constant S_ .f32 0x3F800000#32)))
    (broadcastInDim S100000 ![] bcast_S_S100000 (constant S_ .f32 0x3F800000#32))

theorem rtc64 : RowsTimesCols dot_S100000x64_S64x64_S100000x64_1_0_0_1_n_n :=
  ⟨rfl, rfl, fun _ _ => rfl, fun _ _ => rfl, fun _ _ => rfl, fun _ _ => rfl⟩
theorem rtc32 : RowsTimesCols dot_S100000x64_S64x32_S100000x32_1_0_0_1_n_n :=
  ⟨rfl, rfl, fun _ _ => rfl, fun _ _ => rfl, fun _ _ => rfl, fun _ _ => rfl⟩
theorem rtc1 : RowsTimesCols dot_S100000x32_S32x1_S100000x1_1_0_0_1_n_n :=
  ⟨rfl, rfl, fun _ _ => rfl, fun _ _ => rfl, fun _ _ => rfl, fun _ _ => rfl⟩

variable (m : (ℓ : Loc nD τ sig) → Buf (Elt Ideal) ℓ)

/-- The rectifier's threshold, the word of `0.0`. -/
abbrev zeroF : EReal := Ideal.ofBits .f32 0x00000000#32

/-- The first layer of the argument arrays. -/
def k1 (c : Dev nD) : A2 100000 64 :=
  meanLayer zeroF (agg64 (m ((c.tc : Thread nD τ).loc main_arg0)) (srcOf (m ((c.tc : Thread nD τ).loc main_arg1))) (dstOf (m ((c.tc : Thread nD τ).loc main_arg1))) : A2 100000 64) (divisor (dstOf (m ((c.tc : Thread nD τ).loc main_arg1)))) (m ((c.tc : Thread nD τ).loc main_arg0))
    (transpose S64x64 [1, 0] (m ((c.tc : Thread nD τ).loc main_arg2)) transposes_S64x64_S64x64_1_0) (transpose S64x64 [1, 0] (m ((c.tc : Thread nD τ).loc main_arg4)) transposes_S64x64_S64x64_1_0)
    (fun j => (m ((c.tc : Thread nD τ).loc main_arg3)) (ix1 j))
/-- The second layer. -/
def k2 (c : Dev nD) : A2 100000 64 :=
  meanLayer zeroF (agg64 (k1 m c) (srcOf (m ((c.tc : Thread nD τ).loc main_arg1))) (dstOf (m ((c.tc : Thread nD τ).loc main_arg1))) : A2 100000 64) (divisor (dstOf (m ((c.tc : Thread nD τ).loc main_arg1)))) (k1 m c)
    (transpose S64x64 [1, 0] (m ((c.tc : Thread nD τ).loc main_arg5)) transposes_S64x64_S64x64_1_0) (transpose S64x64 [1, 0] (m ((c.tc : Thread nD τ).loc main_arg7)) transposes_S64x64_S64x64_1_0)
    (fun j => (m ((c.tc : Thread nD τ).loc main_arg6)) (ix1 j))
/-- The third layer. -/
def k3 (c : Dev nD) : A2 100000 32 :=
  meanLayer zeroF (agg64 (k2 m c) (srcOf (m ((c.tc : Thread nD τ).loc main_arg1))) (dstOf (m ((c.tc : Thread nD τ).loc main_arg1))) : A2 100000 64) (divisor (dstOf (m ((c.tc : Thread nD τ).loc main_arg1)))) (k2 m c)
    (transpose S64x32 [1, 0] (m ((c.tc : Thread nD τ).loc main_arg8)) transposes_S32x64_S64x32_1_0) (transpose S64x32 [1, 0] (m ((c.tc : Thread nD τ).loc main_arg10)) transposes_S32x64_S64x32_1_0)
    (fun j => (m ((c.tc : Thread nD τ).loc main_arg9)) (ix1 j))
/-- The read-out. -/
def out (c : Dev nD) : A2 100000 1 :=
  readoutLayer (k3 m c) (transpose S32x1 [1, 0] (m ((c.tc : Thread nD τ).loc main_arg11)) transposes_S1x32_S32x1_1_0) ((m ((c.tc : Thread nD τ).loc main_arg12)) (ix1 (0 : Fin 1)))

/-- The read-out's column viewed as a vector. -/
def result (c : Dev nD) : FVec Ideal S100000 .f32 :=
  shapeCast S100000 (out m c : FVec Ideal S100000x1 .f32) shapeCasts_S100000x1_S100000

/-- THE RESULT: the run's composed term is the read-out of the three mean layers, viewed as a vector. -/
theorem result_eq (c : Dev nD) : res_main_v93 (F := Ideal) m c = result m c := by
  unfold res_main_v93 result
  rw [host_meanLayer rtc64, host_meanLayer rtc64, host_meanLayer rtc32, host_readout rtc1]
  rfl

end Cert.ReferenceIdeal.RefValue

end
-- ==== Proof.LibRowGatherScatter.lean ====
/-
  Rows of a table gathered and scatter-added along an edge list, read at one entry.

  A table [N, C] indexed by a column [E, 1] of integer row numbers:
  * the gather of whole rows (x[idx]): entry (e, q) of the result is the table at row idx[e] — read as a
    signed integer and clamped into [0, N-1] — and column q;
  * the accumulating scatter of whole rows at the extended reals (segment_sum): entry (n, q) of the result
    is the operand's plus the sum, over the edges e whose row number read as a signed integer is exactly n,
    of the update at (e, q); an edge whose number is outside [0, N) adds nothing.
  In both the column is carried through untouched, so the operations act on each column of the table by itself,
  whatever the number C of columns: this is what lets one wide table stand for two narrow ones side by side.
-/
import Idealize.ShloMosaic.Lib.ValueIdx
import Idealize.ShloMosaic.PureOps.Ideal.Laws

noncomputable section

open scoped BigOperators

namespace Idealize.ShloMosaic.RowOps

open Idealize.ShloMosaic Idealize.ShloMosaic.ValueIdx

/-! ## The gather of whole rows -/

section Gather
variable {α : Type}

/-- The dimension numbers of x[idx] for a table [N, C] and row numbers [E, 1]: the row axis is collapsed and
    addressed by the one component of the start index, the column axis is the offset axis, slices are 1 × C. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row edge e reads: its row number as a signed integer, clamped into [0, N-1]. -/
def gatherRow {N E w : Nat} (hN : 0 < N) (idx : IVec ⟨2, ![E, 1]⟩ w) (e : Fin E) : Fin N :=
  ⟨min (idx (ix2 e (0 : Fin 1))).toInt.toNat (N - 1), by omega⟩

/-- THE GATHER AT (e, q): the table at edge e's row and the same column q. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (gatherRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    have ho : (rowGatherDims N E C wf).offCoord (ix2 e q) 1 = q.val := by
      unfold GatherDims.offCoord
      rw [dif_pos ((GatherDims.mem_sKept (rowGatherDims N E C wf) 1).mpr ⟨(by decide : (1 : Fin 2) ∉ ([0] : List (Fin 2))), List.not_mem_nil⟩)]
      rfl
    rw [hs, ho]; omega

end Gather

/-! ## The accumulating scatter of whole rows, at the extended reals -/

section Scatter

/-- The dimension numbers of segment_sum of rows [E, C] into a table [N, C] at row numbers [E, 1]: the row
    axis is inserted and addressed by the one component of the scatter index, the column axis is the window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (idx : IVec ⟨2, ![E, 1]⟩ w) (e : Fin E) (q' : Fin C) :
    (rowScatterDims N E C wf).start (ix2 e q') idx 1 = 0 := by
  unfold ScatterDims.start
  rw [dif_neg (show ¬ (1 : Fin 2) ∈ ([0] : List (Fin 2)) by decide)]

theorem window_row (e : Fin E) (q' : Fin C) : (rowScatterDims N E C wf).window (ix2 e q') 0 = 0 := by
  unfold ScatterDims.window
  rw [dif_neg (show ¬ (0 : Fin 2) ∈ (rowScatterDims N E C wf).sKept by simp [ScatterDims.sKept, Shape.kept, List.mem_filter, List.mem_finRange])]

theorem window_col (e : Fin E) (q' : Fin C) : (rowScatterDims N E C wf).window (ix2 e q') 1 = q'.val := by
  unfold ScatterDims.window
  rw [dif_pos (show (1 : Fin 2) ∈ (rowScatterDims N E C wf).sKept by simp [ScatterDims.sKept, Shape.kept, List.mem_filter, List.mem_finRange])]
  rfl

/-- WHERE AN UPDATE LANDS: the update at (e, q') lands on (n, q) exactly when edge e's row number, read as a
    signed integer, is n, and the columns agree. -/
theorem resultIdx?_rows (idx : IVec ⟨2, ![E, 1]⟩ w) (e : Fin E) (q' : Fin C) (n : Fin N) (q : Fin C) :
    (rowScatterDims N E C wf).resultIdx? (ix2 e q') idx = some (ix2 n q)
      ↔ (idx (ix2 e (0 : Fin 1))).toInt = (n.val : ℤ) ∧ q' = q := by
  have h0 := start_row wf idx e q'
  have h1 := start_col wf idx e q'
  have w0 := window_row wf e q'
  have w1 := window_col wf e q'
  unfold ScatterDims.resultIdx?
  split
  · rename_i h
    rw [Option.some.injEq]
    constructor
    · intro hf
      have e0 := congrArg (fun f => (f 0).val) hf
      have e1 := congrArg (fun f => (f 1).val) hf
      have b0 := h 0
      rw [h0, w0] at b0
      have e0' : ((rowScatterDims N E C wf).start (ix2 e q') idx 0 + ((rowScatterDims N E C wf).window (ix2 e q') 0 : ℤ)).toNat = n.val := e0
      have e1' : ((rowScatterDims N E C wf).start (ix2 e q') idx 1 + ((rowScatterDims N E C wf).window (ix2 e q') 1 : ℤ)).toNat = q.val := e1
      rw [h0, w0] at e0'
      rw [h1, w1] at e1'
      refine ⟨by omega, Fin.ext (by omega)⟩
    · rintro ⟨hr, rfl⟩
      funext a; refine Fin.ext ?_
      match a with
      | ⟨0, _⟩ =>
        show ((rowScatterDims N E C wf).start (ix2 e q') idx 0 + ((rowScatterDims N E C wf).window (ix2 e q') 0 : ℤ)).toNat = n.val
        rw [h0, w0]; omega
      | ⟨1, _⟩ =>
        show ((rowScatterDims N E C wf).start (ix2 e q') idx 1 + ((rowScatterDims N E C wf).window (ix2 e q') 1 : ℤ)).toNat = q'.val
        rw [h1, w1]; omega
  · rename_i h
    constructor
    · intro hf; exact absurd hf (by simp)
    · rintro ⟨hr, rfl⟩
      exfalso; apply h
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < (N : ℤ)
        rw [h0, w0]; have := n.isLt; omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < (C : ℤ)
        rw [h1, w1]; have := q'.isLt; omega

/-- THE ACCUMULATING SCATTER AT (n, q), over the extended reals: the operand's entry plus the sum, over the edges
    whose row number is n, of the update's entry in the same column. -/
theorem scatterAdd_rows_apply {φ : FTy} (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := φ) (rowScatterDims N E C wf) x idx upd (ix2 n q)
      = x (ix2 n q) + ∑ e ∈ Finset.univ.filter (fun e : Fin E => (idx (ix2 e (0 : Fin 1))).toInt = (n.val : ℤ)), upd (ix2 e q) := by
  show x (ix2 n q) + ∑ j ∈ Finset.univ.filter (fun j => (rowScatterDims N E C wf).resultIdx? j idx = some (ix2 n q)), upd j = _
  congr 1
  rw [Finset.sum_filter, sum_idx2, Finset.sum_filter]
  refine Finset.sum_congr rfl fun e _ => ?_
  simp only [resultIdx?_rows wf idx e _ n q]
  by_cases he : (idx (ix2 e (0 : Fin 1))).toInt = (n.val : ℤ)
  · simp only [he, true_and, if_true]
    rw [Finset.sum_ite_eq' Finset.univ q (fun b => upd (ix2 e b))]
    simp
  · simp only [he, false_and, if_false]
    exact Finset.sum_const_zero

end Scatter

end Idealize.ShloMosaic.RowOps

end
-- ==== Proof.LibColumnForms.lean ====
/-
  Two layout operations read at an index given by coordinates, for any extents `a`, `b` and any element type: the
  COLUMN forms that a sum kept as a column (`keepdims` along the last axis) goes through.

  • a vector `[a]` viewed as a column `[a, 1]` reads, at `(i, u)`, the vector at `i` (the unit coordinate `u` is `0`, so
    both indices have row-major position `i`);
  • a column `[a, 1]` broadcast along the second axis to `[a, b]` reads, at `(p, c)`, the column at `(p, 0)`: the
    operand's second axis is a unit axis, so its coordinate is `0` whatever `c` is, and its first axis keeps `p`
    (when `a` itself is `1` the only `p` is `0`).

  The row forms (`[a]` as `[1, a]`, `[1, b]` over `[a, b]`) are the library's `shapeCast_a_1a_apply` and
  `broadcastTo_1b_ab_apply`.
-/
import Idealize.ShloMosaic.Lib.ValueLayout

namespace Cert.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.SageNet.lean ====
/-
  The three-layer network, computed two ways, is one function of real-valued data.

  Every node n sums the feature rows at the sources of its incoming edges (edgeSum).  The first two layers take that
  sum scaled by a reciprocal held in a column; with every divisor a nonzero real and the column holding its reciprocal,
  each is the mean layer (division by the divisor), at every extended real.  The last layer multiplies the rows by the
  weight matrix FIRST, sums the projected rows over the incoming edges and scales the result; the mean form sums the
  rows, divides, and multiplies by the weight matrix afterwards.  Exchanging the finite sum over edges with the
  contraction, and moving the real factor 1/r across it, needs the rows and the weights to be real numbers; the rows
  entering the last layer are outputs of two mean layers, which are real when the data are.
-/
import proofs.«165640_j38122129719954_2_alg».proof.Proof.SageSpec

noncomputable section

open scoped BigOperators

namespace Cert.Sage

open Idealize.ShloMosaic Idealize.ShloMosaic.ValueIdx Cert.RowLayers Cert.DenseEdges

/-! ## The sum over incoming edges -/

/-- The sum, over the edges arriving at node i 0, of the rows of X at the edges' sources. -/
def edgeSum {N E C : ℕ} (T : Fin N → Finset (Fin E)) (g : Fin E → Fin N) (X : A2 N C) : A2 N C :=
  fun i => (0 : EReal) + ∑ e ∈ T (i 0), X (ix2 (g e) (i 1))

theorem edgeSum_ix2 {N E C : ℕ} (T : Fin N → Finset (Fin E)) (g : Fin E → Fin N) (X : A2 N C) (n : Fin N) (q : Fin C) :
    edgeSum T g X (ix2 n q) = (0 : EReal) + ∑ e ∈ T n, X (ix2 (g e) q) := rfl

/-- A finite sum of real numbers is real: the edge sum of a real-valued array is real-valued. -/
theorem isReal_edgeSum {N E C : ℕ} (T : Fin N → Finset (Fin E)) (g : Fin E → Fin N) (X : A2 N C)
    (hX : ∀ i, IsReal (X i)) (i : (⟨2, ![N, C]⟩ : Shape).Idx) : IsReal (edgeSum T g X i) :=
  isReal_zero.add (isReal_sum _ _ fun e _ => hX _)

/-! ## The arrays read at an index given by its two coordinates -/

theorem proj_ix2 {a K J : ℕ} (x : A2 a K) (w : A2 K J) (r : Fin a) (q : Fin J) :
    proj x w (ix2 r q) = ∑ k : Fin K, x (ix2 r k) * w (ix2 k q) := rfl

theorem headLayer_ix2 {a K J : ℕ} (zero : EReal) (P : A2 a J) (inv : A2 a 1) (x : A2 a K) (wr : A2 K J) (b : Fin J → EReal)
    (wreg : A2 J 1) (breg : EReal) (r : Fin a) (u : Fin 1) :
    headLayer zero P inv x wr b wreg breg (ix2 r u)
      = headRow zero (rowOf P r) (inv (ix2 r (0 : Fin 1))) (rowOf x r) wr b wreg breg := rfl

theorem readoutLayer_ix2 {a J : ℕ} (h : A2 a J) (wreg : A2 J 1) (breg : EReal) (r : Fin a) (u : Fin 1) :
    readoutLayer h wreg breg (ix2 r u) = readout (rowOf h r) wreg breg := rfl

/-- Row r of the mean layer is the mean layer of row r. -/
theorem rowOf_meanLayer {a K J : ℕ} (zero : EReal) (S : A2 a K) (c : A1 a) (x : A2 a K) (wl wr : A2 K J) (b : Fin J → EReal)
    (r : Fin a) :
    rowOf (meanLayer zero S c x wl wr b) r = meanRow zero (rowOf S r) (c (ix1 r)) (rowOf x r) wl wr b := rfl

/-! ## The last layer -/

/-- For a real-valued array h and real weights wl: the head computed from the edge sum of the PROJECTED rows, scaled by
    the reciprocal column, is the read-out of the mean layer of the edge sum of the rows.  At node p with divisor r ≠ 0,
    entry j: (∑_e ∑_k h[g e, k]·wl[k, j]) · (1/r) = ∑_k ((∑_e h[g e, k]) / r) · wl[k, j]. -/
theorem headLayer_eq_readoutLayer {N E C D : ℕ} (T : Fin N → Finset (Fin E)) (g : Fin E → Fin N) (c : A1 N) (inv : A2 N 1)
    (hc : ∀ n : Fin N, ∃ r : ℝ, r ≠ 0 ∧ c (ix1 n) = (r : EReal) ∧ inv (ix2 n (0 : Fin 1)) = ((1 / r : ℝ) : EReal))
    (zero : EReal) (h : A2 N C) (hh : ∀ i, IsReal (h i)) (wl wr : A2 C D) (b : Fin D → EReal) (wreg : A2 D 1) (breg : EReal)
    (hwl : ∀ i, IsReal (wl i)) :
    headLayer zero (edgeSum T g (proj h wl)) inv h wr b wreg breg
      = readoutLayer (meanLayer zero (edgeSum T g h) c h wl wr b) wreg breg := by
  funext i
  obtain ⟨p, u, rfl⟩ : ∃ (p : Fin N) (u : Fin 1), i = ix2 p u := ⟨i 0, i 1, eq_ix2 i⟩
  obtain ⟨r, hr, hcr, hinv⟩ := hc p
  rw [headLayer_ix2, readoutLayer_ix2, rowOf_meanLayer, hinv, hcr]
  exact headRow_eq_readout zero _ _ (rowOf (edgeSum T g h) p) _ _ wl wr b wreg breg
    (fun j => scaled_sum_of_products (T p) g h wl hh hwl r hr j)

/-! ## The network -/

/-- THE NETWORK: two scaled layers and the head from the projected edge sum, against three mean layers and the read-out,
    for real-valued features, weights and biases of the first two layers and a real left weight of the third. -/
theorem network_eq {N E A B C D : ℕ} (T : Fin N → Finset (Fin E)) (g : Fin E → Fin N) (c : A1 N) (inv : A2 N 1)
    (hc : ∀ n : Fin N, ∃ r : ℝ, r ≠ 0 ∧ c (ix1 n) = (r : EReal) ∧ inv (ix2 n (0 : Fin 1)) = ((1 / r : ℝ) : EReal))
    (zero : EReal) (hz : IsReal zero)
    (x : A2 N A) (w1l w1r : A2 A B) (b1 : Fin B → EReal) (w2l w2r : A2 B C) (b2 : Fin C → EReal)
    (w3l w3r : A2 C D) (b3 : Fin D → EReal) (wreg : A2 D 1) (breg : EReal)
    (hx : ∀ i, IsReal (x i)) (hw1l : ∀ i, IsReal (w1l i)) (hw1r : ∀ i, IsReal (w1r i)) (hb1 : ∀ j, IsReal (b1 j))
    (hw2l : ∀ i, IsReal (w2l i)) (hw2r : ∀ i, IsReal (w2r i)) (hb2 : ∀ j, IsReal (b2 j)) (hw3l : ∀ i, IsReal (w3l i)) :
    headLayer zero
        (edgeSum T g (proj (scaledLayer zero (edgeSum T g (scaledLayer zero (edgeSum T g x) inv x w1l w1r b1)) inv
                             (scaledLayer zero (edgeSum T g x) inv x w1l w1r b1) w2l w2r b2) w3l))
        inv
        (scaledLayer zero (edgeSum T g (scaledLayer zero (edgeSum T g x) inv x w1l w1r b1)) inv
           (scaledLayer zero (edgeSum T g x) inv x w1l w1r b1) w2l w2r b2)
        w3r b3 wreg breg
      = readoutLayer
          (meanLayer zero
            (edgeSum T g (meanLayer zero (edgeSum T g (meanLayer zero (edgeSum T g x) c x w1l w1r b1)) c
                            (meanLayer zero (edgeSum T g x) c x w1l w1r b1) w2l w2r b2))
            c
            (meanLayer zero (edgeSum T g (meanLayer zero (edgeSum T g x) c x w1l w1r b1)) c
               (meanLayer zero (edgeSum T g x) c x w1l w1r b1) w2l w2r b2)
            w3l w3r b3)
          wreg breg := by
  -- the divisors alone: each is a nonzero real
  have hcm : ∀ n : Fin N, ∃ r : ℝ, r ≠ 0 ∧ c (ix1 n) = (r : EReal) := fun n => by
    obtain ⟨r, hr, h1, _⟩ := hc n
    exact ⟨r, hr, h1⟩
  -- the first two layers: scaled is mean
  have e1 : scaledLayer zero (edgeSum T g x) inv x w1l w1r b1 = meanLayer zero (edgeSum T g x) c x w1l w1r b1 :=
    scaledLayer_eq_meanLayer zero _ inv c x w1l w1r b1 hc
  rw [e1]
  have e2 : scaledLayer zero (edgeSum T g (meanLayer zero (edgeSum T g x) c x w1l w1r b1)) inv
        (meanLayer zero (edgeSum T g x) c x w1l w1r b1) w2l w2r b2
      = meanLayer zero (edgeSum T g (meanLayer zero (edgeSum T g x) c x w1l w1r b1)) c
        (meanLayer zero (edgeSum T g x) c x w1l w1r b1) w2l w2r b2 :=
    scaledLayer_eq_meanLayer zero _ inv c _ w2l w2r b2 hc
  rw [e2]
  -- their outputs are real-valued
  have hk1 : ∀ i, IsReal (meanLayer zero (edgeSum T g x) c x w1l w1r b1 i) :=
    isReal_meanLayer zero _ c x w1l w1r b1 hz (isReal_edgeSum T g x hx) hcm hx hw1l hw1r hb1
  have hk2 : ∀ i, IsReal (meanLayer zero (edgeSum T g (meanLayer zero (edgeSum T g x) c x w1l w1r b1)) c
      (meanLayer zero (edgeSum T g x) c x w1l w1r b1) w2l w2r b2 i) :=
    isReal_meanLayer zero _ c _ w2l w2r b2 hz (isReal_edgeSum T g _ hk1) hcm hk1 hw2l hw2r hb2
  -- the last layer
  exact headLayer_eq_readoutLayer T g c inv hc zero _ hk2 w3l w3r b3 wreg breg hw3l

end Cert.Sage

end
-- ==== Proof.GraphOps.lean ====
/-
  The host's graph operations over the extended reals.

  A table's rows gathered at the edges' sources and scatter-added at the edges' targets into zeros is, entry by entry,
  the sum over the edges arriving at a node of the table's rows at their sources (`edgeSum`). A scatter-add of real
  numbers into real numbers is real; so the number of edges arriving at a node is a real number, floored at one it is
  a nonzero real `r`, and the reciprocal column holds `1 / r`. The word of `1.0` denotes the real number one.
-/
import proofs.«165640_j38122129719954_2_alg».proof.Proof.LibRowGatherScatter
import proofs.«165640_j38122129719954_2_alg».proof.Proof.LibColumnForms
import proofs.«165640_j38122129719954_2_alg».proof.Proof.SageNet
import Idealize.ShloMosaic.PureOps.Ideal.Laws

noncomputable section

open scoped BigOperators

namespace Cert.Sage

open Idealize.ShloMosaic Idealize.ShloMosaic.ValueIdx Idealize.ShloMosaic.RowOps Cert.RowLayers Cert.DenseEdges

/-- The word of `1.0` is the real number one. -/
theorem one_f32 : Ideal.ofBits .f32 0x3F800000#32 = 1 := by
  simp [Ideal.ofBits, Ideal.ieee]
  rw [← EReal.coe_mul]
  norm_num

/-- A scatter-add of real updates into real entries has real entries: each is an entry plus a finite sum of updates. -/
theorem isReal_scatterAdd {so si su : Shape} (sd : ScatterDims so si su) (z : FVec Ideal so .f32) (idx : IVec si 32)
    (upd : FVec Ideal su .f32) (hz : ∀ i, IsReal (z i)) (hu : ∀ j, IsReal (upd j)) (i : so.Idx) :
    IsReal (Host.scatterAdd (F := Ideal) (φ := .f32) sd z idx upd i) :=
  (hz i).add (isReal_sum _ _ fun j _ => hu j)

/-- The edges whose target number is exactly `n`. -/
def incoming {N E : ℕ} (di : IVec ⟨2, ![E, 1]⟩ 32) (n : Fin N) : Finset (Fin E) :=
  Finset.univ.filter fun e => (di (ix2 e (0 : Fin 1))).toInt = (n.val : ℤ)

/-- Gather the rows at the sources, scatter-add them at the targets into zeros: the sum over the incoming edges. -/
theorem agg_eq_edgeSum {N E C : ℕ} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z : FVec Ideal ⟨2, ![N, C]⟩ .f32) (hz : ∀ i, z i = 0) (X : FVec Ideal ⟨2, ![N, C]⟩ .f32) (si di : IVec ⟨2, ![E, 1]⟩ 32) :
    Host.scatterAdd (F := Ideal) (φ := .f32) (rowScatterDims N E C wfs) z di (Host.gather (rowGatherDims N E C wfg) X si)
      = edgeSum (incoming di) (gatherRow hN si) (X : A2 N C) := by
  funext i
  obtain ⟨n, q, rfl⟩ : ∃ (n : Fin N) (q : Fin C), i = ix2 n q := ⟨i 0, i 1, eq_ix2 i⟩
  rw [scatterAdd_rows_apply wfs z di _ n q, edgeSum_ix2, hz]
  refine congrArg _ (Finset.sum_congr rfl fun e _ => ?_)
  exact gather_rows_apply hN wfg X si e q

/-- A real number floored at one is a nonzero real, and one divided by it is its reciprocal. -/
theorem floored_reciprocal (d : EReal) (hd : IsReal d) :
    ∃ r : ℝ, r ≠ 0 ∧ max d 1 = (r : EReal) ∧ Ideal.div 1 (max d 1) = ((1 / r : ℝ) : EReal) := by
  obtain ⟨x, rfl⟩ := hd
  have hne : max x 1 ≠ 0 := ne_of_gt (lt_of_lt_of_le one_pos (le_max_right x 1))
  have hmax : max (x : EReal) 1 = ((max x 1 : ℝ) : EReal) := by
    rw [← EReal.coe_one]; exact (EReal.coe_strictMono.monotone.map_max).symm
  refine ⟨max x 1, hne, hmax, ?_⟩
  rw [hmax, Ideal.div_coe hne, one_mul]

/-- The divisor vector and the reciprocal column, node by node. -/
theorem divisor_facts {N : ℕ} (deg ones : FVec Ideal ⟨1, ![N]⟩ .f32) (hdeg : ∀ i, IsReal (deg i)) (hones : ∀ i, ones i = 1)
    (hc : (⟨1, ![N]⟩ : Shape).ShapeCasts ⟨2, ![N, 1]⟩) (n : Fin N) :
    ∃ r : ℝ, r ≠ 0 ∧ (maximumf deg ones : A1 N) (ix1 n) = (r : EReal)
      ∧ (shapeCast ⟨2, ![N, 1]⟩ (Host.divf (F := Ideal) ones (maximumf deg ones)) hc : A2 N 1) (ix2 n (0 : Fin 1)) = ((1 / r : ℝ) : EReal) := by
  obtain ⟨r, hr, h1, h2⟩ := floored_reciprocal (deg (ix1 n)) (hdeg _)
  refine ⟨r, hr, ?_, ?_⟩
  · show max (deg (ix1 n)) (ones (ix1 n)) = _
    rw [hones]; exact h1
  · rw [Cert.ColumnForms.shapeCast_a_a1_apply]
    show Ideal.div (ones (ix1 n)) (max (deg (ix1 n)) (ones (ix1 n))) = _
    rw [hones]; exact h2

end Cert.Sage

end
-- ==== Proof.Bridge.lean ====
/-
  The two programs compute one function.

  The idealized kernel's result is the head of its fold's closed form; the reference's is the read-out of three mean
  layers. Both gather and scatter-add along the same edge list, so their neighbour sums are the same sums over the
  edges arriving at a node; the number of those edges is a real number, so the divisor is a nonzero real and the
  kernel's reciprocal column holds its reciprocal; and the precondition makes the features and the first two layers'
  weights real numbers, which is what exchanging the third layer's projection with the neighbour sum needs. With these
  the network identity of the specification applies.
-/
import proofs.«165640_j38122129719954_2_alg».proof.Proof.KernelFold
import proofs.«165640_j38122129719954_2_alg».proof.Proof.RefValue
import proofs.«165640_j38122129719954_2_alg».proof.Proof.GraphOps
import proofs.«165640_j38122129719954_2_alg».proof.Proof.SageNet

set_option maxRecDepth 16384

noncomputable section

namespace Cert.Bridge

open Idealize.ShloMosaic Idealize.ShloMosaic.TcCoe Idealize.ShloMosaic.ValueIdx Idealize.ShloMosaic.RowOps Idealize.SL.Sem
open Cert.RowLayers Cert.DenseEdges Cert.Sage
open Cert.KernelIdeal.Fold (srcOf dstOf srcCol dstCol agg64 agg32 divisor invCol)

/-! ## The reference's host terms are the kernel's -/

theorem srcOf_eq : @Cert.ReferenceIdeal.RefValue.srcOf = @srcOf := rfl
theorem dstOf_eq : @Cert.ReferenceIdeal.RefValue.dstOf = @dstOf := rfl
theorem agg64_eq : @Cert.ReferenceIdeal.RefValue.agg64 = @agg64 := rfl
theorem divisor_eq : @Cert.ReferenceIdeal.RefValue.divisor = @divisor := rfl

/-! ## The neighbour sums, the divisor and the reciprocal -/

/-- The edges arriving at node `n`, and the row an edge reads, for the edge list's two rows `v1`, `v3`. -/
abbrev arriving (v3 : IVec Cert.KernelIdeal.S1600000 32) : Fin 100000 → Finset (Fin 1600000) := incoming (N := 100000) (dstCol v3)
abbrev source (v1 : IVec Cert.KernelIdeal.S1600000 32) : Fin 1600000 → Fin 100000 := gatherRow (by norm_num : 0 < 100000) (srcCol v1)

theorem agg64_sum (X : FVec Ideal Cert.KernelIdeal.S100000x64 .f32) (v1 v3 : IVec Cert.KernelIdeal.S1600000 32) :
    (agg64 X v1 v3 : A2 100000 64) = edgeSum (arriving v3) (source v1) (X : A2 100000 64) :=
  agg_eq_edgeSum (by norm_num) Cert.KernelIdeal.gather_S100000x64_S1600000x1_S1600000x64_1_0_n_n_0_1_164.wf
    Cert.KernelIdeal.scatter_S100000x64_S1600000x1_S1600000x64_1_0_0_1.wf _ (fun _ => Ideal.ofBits_zero_f32) X (srcCol v1) (dstCol v3)

theorem agg32_sum (X : FVec Ideal Cert.KernelIdeal.S100000x32 .f32) (v1 v3 : IVec Cert.KernelIdeal.S1600000 32) :
    (agg32 X v1 v3 : A2 100000 32) = edgeSum (arriving v3) (source v1) (X : A2 100000 32) :=
  agg_eq_edgeSum (by norm_num) Cert.KernelIdeal.gather_S100000x32_S1600000x1_S1600000x32_1_0_n_n_0_1_132.wf
    Cert.KernelIdeal.scatter_S100000x32_S1600000x1_S1600000x32_1_0_0_1.wf _ (fun _ => Ideal.ofBits_zero_f32) X (srcCol v1) (dstCol v3)

/-- Node by node the divisor is a nonzero real and the reciprocal column holds its reciprocal. -/
theorem divisor_reciprocal (v3 : IVec Cert.KernelIdeal.S1600000 32) (n : Fin 100000) :
    ∃ r : ℝ, r ≠ 0 ∧ (divisor v3 : A1 100000) (ix1 n) = (r : EReal) ∧ (invCol v3 : A2 100000 1) (ix2 n (0 : Fin 1)) = ((1 / r : ℝ) : EReal) :=
  divisor_facts _ _ (isReal_scatterAdd _ _ _ _ (fun _ => ⟨0, Ideal.ofBits_zero_f32.trans EReal.coe_zero.symm⟩)
      (fun _ => ⟨1, one_f32.trans EReal.coe_one.symm⟩)) (fun _ => one_f32) _ n

/-! ## The bridge -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From memories agreeing on the arguments, with real features and real weights of the first two layers and real
    neighbour weights of the third, the kernel's head is the reference's read-out. -/
theorem out_eq (c : Dev Cert.KernelIdeal.nD)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h0 : ∀ i, IsReal ((m ((c.tc : Thread Cert.KernelIdeal.nD Cert.KernelIdeal.τ).loc Cert.KernelIdeal.main_arg0)) i)) (h2 : ∀ i, IsReal ((m ((c.tc : Thread Cert.KernelIdeal.nD Cert.KernelIdeal.τ).loc Cert.KernelIdeal.main_arg2)) i)) (h3 : ∀ i, IsReal ((m ((c.tc : Thread Cert.KernelIdeal.nD Cert.KernelIdeal.τ).loc Cert.KernelIdeal.main_arg3)) i)) (h4 : ∀ i, IsReal ((m ((c.tc : Thread Cert.KernelIdeal.nD Cert.KernelIdeal.τ).loc Cert.KernelIdeal.main_arg4)) i))
    (h5 : ∀ i, IsReal ((m ((c.tc : Thread Cert.KernelIdeal.nD Cert.KernelIdeal.τ).loc Cert.KernelIdeal.main_arg5)) i)) (h6 : ∀ i, IsReal ((m ((c.tc : Thread Cert.KernelIdeal.nD Cert.KernelIdeal.τ).loc Cert.KernelIdeal.main_arg6)) i)) (h7 : ∀ i, IsReal ((m ((c.tc : Thread Cert.KernelIdeal.nD Cert.KernelIdeal.τ).loc Cert.KernelIdeal.main_arg7)) i)) (h8 : ∀ i, IsReal ((m ((c.tc : Thread Cert.KernelIdeal.nD Cert.KernelIdeal.τ).loc Cert.KernelIdeal.main_arg8)) i)) :
    Cert.KernelIdeal.Fold.out m c = Cert.ReferenceIdeal.RefValue.out m' c := by
  obtain ⟨e0, e1, e2, e3, e4, e5, e6, e7, e8, e9, e10, e11, e12⟩ := hagree
  unfold Cert.KernelIdeal.Fold.out Cert.KernelIdeal.Fold.h2 Cert.KernelIdeal.Fold.h1
    Cert.ReferenceIdeal.RefValue.out Cert.ReferenceIdeal.RefValue.k3 Cert.ReferenceIdeal.RefValue.k2 Cert.ReferenceIdeal.RefValue.k1
  rw [e0, e1, e2, e3, e4, e5, e6, e7, e8, e9, e10, e11, e12, srcOf_eq, dstOf_eq, agg64_eq, divisor_eq]
  simp only [agg64_sum, agg32_sum]
  exact network_eq (arriving (dstOf (m ((c.tc : Thread Cert.KernelIdeal.nD Cert.KernelIdeal.τ).loc Cert.KernelIdeal.main_arg1)))) (source (srcOf (m ((c.tc : Thread Cert.KernelIdeal.nD Cert.KernelIdeal.τ).loc Cert.KernelIdeal.main_arg1)))) (divisor (dstOf (m ((c.tc : Thread Cert.KernelIdeal.nD Cert.KernelIdeal.τ).loc Cert.KernelIdeal.main_arg1)))) (invCol (dstOf (m ((c.tc : Thread Cert.KernelIdeal.nD Cert.KernelIdeal.τ).loc Cert.KernelIdeal.main_arg1))))
    (divisor_reciprocal _) _ ⟨0, Ideal.ofBits_zero_f32.trans EReal.coe_zero.symm⟩ _ _ _ _ _ _ _ _ _ _ _ _
    h0 (fun i => h2 _) (fun i => h4 _) (fun j => h3 _) (fun i => h5 _) (fun i => h7 _) (fun j => h6 _) (fun i => h8 _)

/-- The same, for the two columns viewed as vectors. -/
theorem result_eq (c : Dev Cert.KernelIdeal.nD)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h0 : ∀ i, IsReal ((m ((c.tc : Thread Cert.KernelIdeal.nD Cert.KernelIdeal.τ).loc Cert.KernelIdeal.main_arg0)) i)) (h2 : ∀ i, IsReal ((m ((c.tc : Thread Cert.KernelIdeal.nD Cert.KernelIdeal.τ).loc Cert.KernelIdeal.main_arg2)) i)) (h3 : ∀ i, IsReal ((m ((c.tc : Thread Cert.KernelIdeal.nD Cert.KernelIdeal.τ).loc Cert.KernelIdeal.main_arg3)) i)) (h4 : ∀ i, IsReal ((m ((c.tc : Thread Cert.KernelIdeal.nD Cert.KernelIdeal.τ).loc Cert.KernelIdeal.main_arg4)) i))
    (h5 : ∀ i, IsReal ((m ((c.tc : Thread Cert.KernelIdeal.nD Cert.KernelIdeal.τ).loc Cert.KernelIdeal.main_arg5)) i)) (h6 : ∀ i, IsReal ((m ((c.tc : Thread Cert.KernelIdeal.nD Cert.KernelIdeal.τ).loc Cert.KernelIdeal.main_arg6)) i)) (h7 : ∀ i, IsReal ((m ((c.tc : Thread Cert.KernelIdeal.nD Cert.KernelIdeal.τ).loc Cert.KernelIdeal.main_arg7)) i)) (h8 : ∀ i, IsReal ((m ((c.tc : Thread Cert.KernelIdeal.nD Cert.KernelIdeal.τ).loc Cert.KernelIdeal.main_arg8)) i)) :
    Cert.KernelIdeal.Fold.result m c = Cert.ReferenceIdeal.RefValue.result m' c := by
  unfold Cert.KernelIdeal.Fold.result Cert.ReferenceIdeal.RefValue.result
  rw [out_eq m m' c hagree h0 h2 h3 h4 h5 h6 h7 h8]

end Cert.Bridge

end
-- ==== Proof.FiniteInputs.lean ====
/-
  Finite inputs are real-valued inputs.

  The precondition asks, of each of the twelve float arguments x, that every entry satisfies |x_i| < +∞, and takes the
  conjunction of the twelve answers: for each argument the comparison |x_i| < +∞ is made entrywise against the constant
  +∞ (the pattern 0x7F800000) spread over the argument's shape, the entrywise answers are folded by "and" starting from
  "true" into one truth value, and the twelve truth values are joined by "and".

  Read over the extended reals, |x| is max x (-x), which is +∞ at both infinities and a real number otherwise.  So
  |x| < +∞ holds exactly when x is neither +∞ nor −∞, that is, when x is a real number.  A fold by "and" from "true" that
  comes out "true" met "true" at every entry, and a conjunction that is "true" has every conjunct "true".  Hence the
  precondition gives: every entry of every float argument is a real number.
-/
import proofs.«165640_j38122129719954_2_alg».proof.Pre_finite_inputs
import proofs.«165640_j38122129719954_2_alg».proof.Proof.LibDenseEdges
import Idealize.ShloMosaic.PureOps.Ideal.Laws
import Idealize.ShloMosaic.Lib.ReduceAll
import Idealize.ShloMosaic.Lib.ValueIdx

noncomputable section

namespace Cert.FiniteInputs

open Idealize.ShloMosaic Idealize.ShloMosaic.ValueIdx
open Cert.Pre_finite_inputs
open Cert.DenseEdges (IsReal isReal_of_ne)

/-- The single-precision pattern 0x7F800000 (sign 0, exponent all ones, fraction 0) denotes +∞. -/
theorem ofBits_inf : Ideal.ofBits .f32 0x7F800000#32 = ⊤ := by simp [Ideal.ofBits, Ideal.ieee]

/-- An extended real whose absolute value max x (-x) is below +∞ is a real number: at x = −∞ the second term −x is +∞,
    at x = +∞ the first term is. -/
theorem isReal_of_abs_lt_top (x : EReal) (h : max x (-x) < ⊤) : IsReal x := by
  rw [max_lt_iff] at h
  refine isReal_of_ne ?_ ?_
  · intro hb; subst hb; simp at h
  · intro ht; subst ht; simp at h

/-- One entry: if the comparison |x| < +∞ answers "true", x is a real number. -/
theorem isReal_of_cmp (x : Ideal .f32)
    (h : FloatOps.cmpf .olt (FloatOps.hostAbsf x) (FloatOps.ofBits (F := Ideal) .f32 0x7F800000#32) = 1#1) :
    IsReal x := by
  have h' : Ideal.cmp .olt (max (x : EReal) (-(x : EReal))) (Ideal.ofBits .f32 0x7F800000#32) = 1#1 := h
  rw [ofBits_inf] at h'
  unfold Ideal.cmp at h'
  refine isReal_of_abs_lt_top x ?_
  by_contra hn
  simp [hn] at h'

/-- One argument, of any shape: if the entrywise answers to |x_i| < +∞ (the constant +∞ spread over the shape from any
    shape c along any axes), folded by "and" over all axes into a result with a single index, give "true" there, then
    every entry of x is a real number. -/
theorem reals_of_all_finite {s c t u : Shape} {axes : List (Fin s.rank)} [Subsingleton t.Idx]
    {dims : Fin c.rank → Fin s.rank} (hb : c.BroadcastsInDim s dims)
    (x : FVec Ideal s .f32) (init : IVec u 1) (h : s.ReducesTo axes t) (hu : 0 < u.numel) (j : t.Idx)
    (e : Host.reduce IntOp.andi
          (cmpf .olt (Host.absf x) (broadcastInDim s dims hb (constant (F := Ideal) c .f32 0x7F800000#32)))
          init h hu j = 1#1) :
    ∀ i, IsReal (x i) := fun i =>
  isReal_of_cmp (x i) (Host.reduce_andi_all _ init h hu j e i)

/-- A shape of rank 0 has exactly one index (the empty tuple of coordinates). -/
instance : Subsingleton S_.Idx := ⟨fun a b => funext fun d => d.elim0⟩

/-- THE PRECONDITION DECODED: if the conjunction of the twelve "every entry is finite" answers is "true", every entry of
    each of the twelve float arguments is a real number.  (The integer argument a1, the edge list, is not constrained.) -/
theorem reals_of_finite_inputs [Cert.Pre_finite_inputs.Facts]
    (a0 : FVec Ideal S100000x64 .f32) (a1 : IVec S2x1600000 32) (a2 : FVec Ideal S64x64 .f32) (a3 : FVec Ideal S64 .f32) (a4 : FVec Ideal S64x64 .f32) (a5 : FVec Ideal S64x64 .f32) (a6 : FVec Ideal S64 .f32) (a7 : FVec Ideal S64x64 .f32) (a8 : FVec Ideal S32x64 .f32) (a9 : FVec Ideal S32 .f32) (a10 : FVec Ideal S32x64 .f32) (a11 : FVec Ideal S1x32 .f32) (a12 : FVec Ideal S1 .f32)
    (h : fn (F := Ideal) a0 a1 a2 a3 a4 a5 a6 a7 a8 a9 a10 a11 a12 = fun _ => 1#1) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) := by
  have e := congrFun h ix0
  dsimp only [fn, fn_part1, fn_part2, fn_part3, andi] at e
  simp only [IntOp.andi_eq_one] at e
  obtain ⟨⟨⟨⟨⟨⟨⟨⟨⟨⟨⟨e0, e2⟩, e3⟩, e4⟩, e5⟩, e6⟩, e7⟩, e8⟩, e9⟩, e10⟩, e11⟩, e12⟩ := e
  exact ⟨reals_of_all_finite _ a0 _ _ _ _ e0,
    reals_of_all_finite _ a2 _ _ _ _ e2,
    reals_of_all_finite _ a3 _ _ _ _ e3,
    reals_of_all_finite _ a4 _ _ _ _ e4,
    reals_of_all_finite _ a5 _ _ _ _ e5,
    reals_of_all_finite _ a6 _ _ _ _ e6,
    reals_of_all_finite _ a7 _ _ _ _ e7,
    reals_of_all_finite _ a8 _ _ _ _ e8,
    reals_of_all_finite _ a9 _ _ _ _ e9,
    reals_of_all_finite _ a10 _ _ _ _ e10,
    reals_of_all_finite _ a11 _ _ _ _ e11,
    reals_of_all_finite _ a12 _ _ _ _ e12⟩

end Cert.FiniteInputs

end
-- ==== Proof.lean ====
/-
  Three mean-aggregating graph layers and a linear read-out on 100000 nodes and 1600000 edges: a pipelined kernel
  against its plain reference, equal at the ideal instance.

  The reference computes, three times, the sum of the source rows over the edges arriving at each node, divides it by
  the number of those edges floored at one, and applies `max ((mean·Wl + b) + x·Wr) 0`; then a linear read-out. The
  kernel computes the edge count and its reciprocal once, multiplies the neighbour sums by the reciprocal inside its
  first two layers (blocks of 5000 rows, products into zero accumulators), and for the third layer sums the rows
  ALREADY multiplied by the neighbour weights (32 wide instead of 64), adding the bias before the second product.
  Over the extended reals: dividing by a nonzero real is multiplying by its reciprocal, and the three-term sums may
  be regrouped, at every extended real; exchanging the third layer's product with the sum over the edges needs real
  entries, which the precondition (every input finite) provides for the features and the weights it passes through.

  The pieces: the kernel's run with every buffer read at the end (KernelRun), its three regions as whole-array layer
  functions (Region0–2) and its fold through the host stretches (KernelFold); the reference's generated run read as
  the same layer functions (RefValue); the mathematics (SageSpec, SageNet), the spellings (SageForms, SageBlocks,
  GraphOps), the precondition decoded (FiniteInputs), and the two sides joined (Bridge).
-/
import proofs.«165640_j38122129719954_2_alg».proof.Defs
import proofs.«165640_j38122129719954_2_alg».proof.Proof.Gen.Kernel
import proofs.«165640_j38122129719954_2_alg».proof.Proof.Patched.Kernel.Frame
import proofs.«165640_j38122129719954_2_alg».proof.Proof.Gen.KernelIdeal
import proofs.«165640_j38122129719954_2_alg».proof.Proof.Patched.KernelIdeal.Frame
import proofs.«165640_j38122129719954_2_alg».proof.Proof.Gen.ReferenceIdeal
import proofs.«165640_j38122129719954_2_alg».proof.Proof.Gen.ReferenceIdeal.Run
import proofs.«165640_j38122129719954_2_alg».proof.Proof.Gen.Pre_finite_inputs
import proofs.«165640_j38122129719954_2_alg».proof.Proof.KernelRun
import proofs.«165640_j38122129719954_2_alg».proof.Proof.KernelFold
import proofs.«165640_j38122129719954_2_alg».proof.Proof.RefValue
import proofs.«165640_j38122129719954_2_alg».proof.Proof.Bridge
import proofs.«165640_j38122129719954_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

/-- Each program runs, faults nowhere and leaves its arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- The idealized kernel's run: the result array ends at the head's column viewed as a vector, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v53) = Cert.KernelIdeal.Fold.result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run Cert.KernelIdeal.defs _ _).mono (fun r h c =>
    ⟨(h c _ (Cert.KernelIdeal.Gen.mem_uc Cert.KernelIdeal.main_v53 (by decide))).trans (Cert.KernelIdeal.Fold.result_eq m ρ c),
     (h c _ (Cert.KernelIdeal.Gen.mem_uc Cert.KernelIdeal.main_arg0 (by decide))).trans (Cert.KernelIdeal.Gen.W7_main_arg0 m ρ c),
     (h c _ (Cert.KernelIdeal.Gen.mem_uc Cert.KernelIdeal.main_arg1 (by decide))).trans (Cert.KernelIdeal.Gen.W7_main_arg1 m ρ c),
     (h c _ (Cert.KernelIdeal.Gen.mem_uc Cert.KernelIdeal.main_arg2 (by decide))).trans (Cert.KernelIdeal.Gen.W7_main_arg2 m ρ c),
     (h c _ (Cert.KernelIdeal.Gen.mem_uc Cert.KernelIdeal.main_arg3 (by decide))).trans (Cert.KernelIdeal.Gen.W7_main_arg3 m ρ c),
     (h c _ (Cert.KernelIdeal.Gen.mem_uc Cert.KernelIdeal.main_arg4 (by decide))).trans (Cert.KernelIdeal.Gen.W7_main_arg4 m ρ c),
     (h c _ (Cert.KernelIdeal.Gen.mem_uc Cert.KernelIdeal.main_arg5 (by decide))).trans (Cert.KernelIdeal.Gen.W7_main_arg5 m ρ c),
     (h c _ (Cert.KernelIdeal.Gen.mem_uc Cert.KernelIdeal.main_arg6 (by decide))).trans (Cert.KernelIdeal.Gen.W7_main_arg6 m ρ c),
     (h c _ (Cert.KernelIdeal.Gen.mem_uc Cert.KernelIdeal.main_arg7 (by decide))).trans (Cert.KernelIdeal.Gen.W7_main_arg7 m ρ c),
     (h c _ (Cert.KernelIdeal.Gen.mem_uc Cert.KernelIdeal.main_arg8 (by decide))).trans (Cert.KernelIdeal.Gen.W7_main_arg8 m ρ c),
     (h c _ (Cert.KernelIdeal.Gen.mem_uc Cert.KernelIdeal.main_arg9 (by decide))).trans (Cert.KernelIdeal.Gen.W7_main_arg9 m ρ c),
     (h c _ (Cert.KernelIdeal.Gen.mem_uc Cert.KernelIdeal.main_arg10 (by decide))).trans (Cert.KernelIdeal.Gen.W7_main_arg10 m ρ c),
     (h c _ (Cert.KernelIdeal.Gen.mem_uc Cert.KernelIdeal.main_arg11 (by decide))).trans (Cert.KernelIdeal.Gen.W7_main_arg11 m ρ c),
     (h c _ (Cert.KernelIdeal.Gen.mem_uc Cert.KernelIdeal.main_arg12 (by decide))).trans (Cert.KernelIdeal.Gen.W7_main_arg12 m ρ c)⟩)
    (Cert.KernelIdeal.Out.run_all m ρ)

/-- From memories agreeing on the arguments both idealized programs end with the same result. -/
theorem algebraic : Cert.algebraic_KernelIdeal_ReferenceIdeal := by
  intro m ρ m' ρ' hpre hagree
  refine ⟨fun c => Cert.KernelIdeal.Fold.result m c, kernel_run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.RefValue.result_eq]
  obtain ⟨r0, r2, r3, r4, r5, r6, r7, r8, -⟩ := Cert.FiniteInputs.reals_of_finite_inputs _ _ _ _ _ _ _ _ _ _ _ _ _ (hpre c)
  exact (Cert.Bridge.result_eq m m' c (hagree c) r0 r2 r3 r4 r5 r6 r7 r8).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
